-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x500 .f32) (main_arg1 : IVec S2x1600000 32) (main_arg2 : FVec F S500x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x500 : Shape := ⟨2, ![2000, 500]⟩
abbrev S2000x128 : Shape := ⟨2, ![2000, 128]⟩
abbrev S1700000x128 : Shape := ⟨2, ![1700000, 128]⟩
abbrev S1x128 : Shape := ⟨2, ![1, 128]⟩
abbrev S1x16 : Shape := ⟨2, ![1, 16]⟩
abbrev S100000x16 : Shape := ⟨2, ![100000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 96
  | .vmem => 16
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S1x16, .f32⟩
  | .hbm, ⟨95, _⟩ => ⟨S100000x16, .f32⟩
  | .local _ .vmem, ⟨0, _⟩ => ⟨S2000x500, .f32⟩
  | .local _ .vmem, ⟨1, _⟩ => ⟨S2000x500, .f32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x16, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x500_S500x128_S2000x128_1_0_0_1_n_n_wf : DotDims.WF S2000x500 S500x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x16.size a ≤ S100000x16.size a
  hwx2_3 : ∀ i : grid2.Coords, EltTy.bits .f32 = 32 ∨ (Rect.block (s := S100000x16) S2000x16.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x16, .f32⟩
  | _ => ⟨S100000x500, .f32⟩

abbrev hbmTy0_1 (i : Nat) : BufTy := match i % 128 with
  | 0 => ⟨S1x16, .f32⟩
  | 1 => ⟨S100000x16, .f32⟩
  | 2 => ⟨S100000x16, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x16, .f32⟩
  | 10 => ⟨S100000x16, .f32⟩
  | 11 => ⟨S100000x16, .f32⟩
  | 12 => ⟨S_, .f32⟩
  | 13 => ⟨S100000, .f32⟩
  | 14 => ⟨S100000x1, .f32⟩
  | 15 => ⟨S100000x16, .f32⟩
  | 16 => ⟨S100000x16, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x500_S500x128_S100000x128_1_0_0_1_n_n_wf : DotDims.WF S100000x500 S500x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.LibConcatCongr.lean ====
/- A congruence rule for a concatenate of two pieces.
   `concatenate t a xs h` carries a side condition `h` whose type mentions the list of pieces (through the list of their
   shapes), so the simplifier's automatic congruence treats the list as fixed and never rewrites inside a piece. The
   shapes of the pieces do not depend on the pieces' contents: with the side condition stated over the two shapes, equal
   pieces may be exchanged, and as a `congr` rule this lets a simp pass rewrite the contents of both pieces (a read of a
   buffer pushed back through host operations, for instance) where a program concatenates two arrays. -/
import Idealize.ShloMosaic.PureOps.ShapeOps

namespace Cert.ConcatCongr

open Idealize.ShloMosaic

/-- Two concatenated pieces may be replaced by equal pieces: the side condition speaks of the pieces' shapes only. -/
@[congr] theorem concatenate2_congr {α : Type} (t : Shape) (a : Fin t.rank) (s₁ s₂ : Shape) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

end Cert.ConcatCongr
-- ==== Proof.KRun.lean ====
/-
  The kernel program's run with its result named.

  @main is eleven segments: stretches of host operations and three calls, each call walking its grid. From any launch
  memory every weakly fair execution ends, nothing faulting; the buffers then hold what the segments leave one after
  the other, so the result array holds what the last call's write-backs leave of it (the fold `Gen.W11` at the result's
  buffer) and every argument array holds its launch contents.
-/
import proofs.«131153_j89472758710571_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at what the
    last call's write-backs leave of it, and the argument arrays end as launched. -/
theorem run_named : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KRun

end
-- ==== Proof.HostChainA.lean ====
/-
  The host side of the kernel program up to its first call, read as functions of the arguments.

  Before the first call @main builds, from the edge list alone, the source and target node of every edge with one
  self-loop per node appended (`src`, `dst`), each node's in-degree, its inverse square root where the degree is
  positive, and the per-edge weight `norm = dinv[src] · dinv[dst]`. These are the same host operations, in the same
  order, as the reference program's, so each buffer holds the reference's stage of the same name of the edge list.
  No host operation and no call writes an argument array, and the first call writes only its own output.
-/
import proofs.«131153_j89472758710571_1_alg».proof.Proof.Gen.KernelIdeal.Frame
import proofs.«131153_j89472758710571_1_alg».proof.Proof.Gen.ReferenceIdeal
import proofs.«131153_j89472758710571_1_alg».proof.Proof.RefRead
import proofs.«131153_j89472758710571_1_alg».proof.Proof.LibConcatCongr
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The three host stretches, one at a time

The second stretch is the module-local function `where`: each of its operations reads and writes its buffers through
the identification of the buffer's type with the tensor type of the value it holds, which at these buffers is the
identity. Read at arbitrary entry contents, where its three inputs are opaque, the stretch's result is the select of
them against the zero constant broadcast along the node axis; the first stretch's values are put in afterwards, and the
third stretch is read the same way from the second's. -/

/-- After the first stretch: where the in-degree is positive. -/
theorem at1_pos : W1 m ρ c (Proc.devRef .tc main_v12) = Cert.ReferenceIdeal.ReadP.val_main_v13 (F := Ideal) (m ((c : Thread nD τ).loc main_arg1)) := by
  show StableHlo.after hostOps0 _ (Proc.devRef .tc main_v12) = _
  after_results_simp
  rfl

/-- After the first stretch: the inverse square root of the in-degree. -/
theorem at1_rsqrt : W1 m ρ c (Proc.devRef .tc main_v13) = Cert.ReferenceIdeal.ReadP.val_main_v14 (F := Ideal) (m ((c : Thread nD τ).loc main_arg1)) := by
  show StableHlo.after hostOps0 _ (Proc.devRef .tc main_v13) = _
  after_results_simp
  rfl

/-- After the first stretch: the zero the select falls back to. -/
theorem at1_zero : W1 m ρ c (Proc.devRef .tc main_cst_2) = Cert.ReferenceIdeal.ReadP.val_main_cst_2 (F := Ideal) := by
  show StableHlo.after hostOps0 _ (Proc.devRef .tc main_cst_2) = _
  after_results_simp
  rfl

/-- The `where` stretch at any entry contents: the select of the three buffers it reads, the third broadcast
    along the node axis. -/
theorem where_v14 (V : Valuation τ sig (Elt Ideal)) :
    StableHlo.after hostOps0_1 V (Proc.devRef .tc main_v14) =
      (select (V (Proc.devRef .tc main_v12)) (V (Proc.devRef .tc main_v13))
        (broadcastInDim S100000 ![] bcast_S_S100000 (id (V (Proc.devRef .tc main_cst_2)))) : (⟨S100000, .f32⟩ : BufTy).Contents (Elt Ideal)) := by
  after_results_simp
  rfl

/-- After the second stretch: the edge sources, which it does not write. -/
theorem at2_src : W2 m ρ c (Proc.devRef .tc main_v3) = Cert.ReferenceIdeal.ReadP.val_main_v3 (F := Ideal) (m ((c : Thread nD τ).loc main_arg1)) := by
  show StableHlo.after hostOps0_1 (StableHlo.after hostOps0 _) (Proc.devRef .tc main_v3) = _
  after_results_simp
  rfl

/-- After the second stretch: the edge targets, which it does not write. -/
theorem at2_dst : W2 m ρ c (Proc.devRef .tc main_v6) = Cert.ReferenceIdeal.ReadP.val_main_v6 (F := Ideal) (m ((c : Thread nD τ).loc main_arg1)) := by
  show StableHlo.after hostOps0_1 (StableHlo.after hostOps0 _) (Proc.devRef .tc main_v6) = _
  after_results_simp
  rfl

/-- After the second stretch: each node's inverse square root of its in-degree where that is positive, else zero. -/
theorem at2_dinv : W2 m ρ c (Proc.devRef .tc main_v14) = Cert.ReferenceIdeal.ReadP.val_main_v15 (F := Ideal) (m ((c : Thread nD τ).loc main_arg1)) := by
  show StableHlo.after hostOps0_1 (W1 m ρ c) (Proc.devRef .tc main_v14) = _
  rw [where_v14, at1_pos, at1_rsqrt, at1_zero]
  rfl

/-! ## At the first call's entry -/

/-- The edge sources with the self-loops appended. -/
theorem at3_src : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 _)) (Proc.devRef .tc main_v3) = _
  after_results_simp
  rfl

/-- The edge targets with the self-loops appended. -/
theorem at3_dst : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 _)) (Proc.devRef .tc main_v6) = _
  after_results_simp
  rfl

/-- The per-edge weight. -/
theorem at3_norm : W3 m ρ c (Proc.devRef .tc main_v29) = Cert.ReferenceIdeal.ReadP.val_main_v30 (F := Ideal) (m ((c : Thread nD τ).loc main_arg1)) := by
  show StableHlo.after hostOps0_2 (W2 m ρ c) (Proc.devRef .tc main_v29) = _
  generalize hV : W2 m ρ c = V
  after_results_simp
  subst hV
  rw [at2_dinv, at2_src, at2_dst]
  rfl

/-- The argument arrays are as launched. -/
theorem at3_arg0 : W3 m ρ c (Proc.devRef .tc main_arg0) = (m ((c : Thread nD τ).loc main_arg0)) := by
  show StableHlo.after hostOps0_2 (StableHlo.after hostOps0_1 (StableHlo.after hostOps0 _)) (Proc.devRef .tc main_arg0) = _
  after_results_simp
theorem at3_arg2 : W3 m ρ c (Proc.devRef .tc main_arg2) = (m ((c : Thread nD τ).loc main_arg2)) := by
  show StableHlo.after hostOps0_2 (StableHlo.after hostOps0_1 (StableHlo.after hostOps0 _)) (Proc.devRef .tc main_arg2) = _
  after_results_simp
theorem at3_arg3 : W3 m ρ c (Proc.devRef .tc main_arg3) = (m ((c : Thread nD τ).loc main_arg3)) := by
  show StableHlo.after hostOps0_2 (StableHlo.after hostOps0_1 (StableHlo.after hostOps0 _)) (Proc.devRef .tc main_arg3) = _
  after_results_simp
theorem at3_arg4 : W3 m ρ c (Proc.devRef .tc main_arg4) = (m ((c : Thread nD τ).loc main_arg4)) := by
  show StableHlo.after hostOps0_2 (StableHlo.after hostOps0_1 (StableHlo.after hostOps0 _)) (Proc.devRef .tc main_arg4) = _
  after_results_simp
theorem at3_arg5 : W3 m ρ c (Proc.devRef .tc main_arg5) = (m ((c : Thread nD τ).loc main_arg5)) := by
  show StableHlo.after hostOps0_2 (StableHlo.after hostOps0_1 (StableHlo.after hostOps0 _)) (Proc.devRef .tc main_arg5) = _
  after_results_simp
theorem at3_arg6 : W3 m ρ c (Proc.devRef .tc main_arg6) = (m ((c : Thread nD τ).loc main_arg6)) := by
  show StableHlo.after hostOps0_2 (StableHlo.after hostOps0_1 (StableHlo.after hostOps0 _)) (Proc.devRef .tc main_arg6) = _
  after_results_simp
theorem at3_arg7 : W3 m ρ c (Proc.devRef .tc main_arg7) = (m ((c : Thread nD τ).loc main_arg7)) := by
  show StableHlo.after hostOps0_2 (StableHlo.after hostOps0_1 (StableHlo.after hostOps0 _)) (Proc.devRef .tc main_arg7) = _
  after_results_simp

/-! ## Across the first call: it writes its output array only -/

theorem at4_src : W4 m ρ c (Proc.devRef .tc main_v3) = Cert.ReferenceIdeal.ReadP.val_main_v3 (F := Ideal) (m ((c : Thread nD τ).loc main_arg1)) := by
  exact (W4_of_ne m ρ c main_v3 (by decide)).trans (at3_src m ρ c)
theorem at4_dst : W4 m ρ c (Proc.devRef .tc main_v6) = Cert.ReferenceIdeal.ReadP.val_main_v6 (F := Ideal) (m ((c : Thread nD τ).loc main_arg1)) := by
  exact (W4_of_ne m ρ c main_v6 (by decide)).trans (at3_dst m ρ c)
theorem at4_norm : W4 m ρ c (Proc.devRef .tc main_v29) = Cert.ReferenceIdeal.ReadP.val_main_v30 (F := Ideal) (m ((c : Thread nD τ).loc main_arg1)) := by
  exact (W4_of_ne m ρ c main_v29 (by decide)).trans (at3_norm m ρ c)
theorem at4_arg3 : W4 m ρ c (Proc.devRef .tc main_arg3) = (m ((c : Thread nD τ).loc main_arg3)) := by
  exact (W4_of_ne m ρ c main_arg3 (by decide)).trans (at3_arg3 m ρ c)
theorem at4_arg4 : W4 m ρ c (Proc.devRef .tc main_arg4) = (m ((c : Thread nD τ).loc main_arg4)) := by
  exact (W4_of_ne m ρ c main_arg4 (by decide)).trans (at3_arg4 m ρ c)
theorem at4_arg5 : W4 m ρ c (Proc.devRef .tc main_arg5) = (m ((c : Thread nD τ).loc main_arg5)) := by
  exact (W4_of_ne m ρ c main_arg5 (by decide)).trans (at3_arg5 m ρ c)
theorem at4_arg6 : W4 m ρ c (Proc.devRef .tc main_arg6) = (m ((c : Thread nD τ).loc main_arg6)) := by
  exact (W4_of_ne m ρ c main_arg6 (by decide)).trans (at3_arg6 m ρ c)
theorem at4_arg7 : W4 m ρ c (Proc.devRef .tc main_arg7) = (m ((c : Thread nD τ).loc main_arg7)) := by
  exact (W4_of_ne m ρ c main_arg7 (by decide)).trans (at3_arg7 m ρ c)

end Cert.KernelIdeal.HostChain

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.Region01.lean ====
/-
  What the two matrix-product calls leave in their output arrays.

  Each call walks 50 bands of 2000 rows; at band t it multiplies rows 2000·t … 2000·t+1999 of the left array by the
  whole right array and writes the 2000 × 128 product back as band t of the output. Row r of a product depends on row r
  of the left operand alone, so the bands together are the product of the whole arrays: entry (r, q) is
  ∑ k, L(r,k) · R(k,q), which is what the host's `dot_general` of the two arrays holds there.
-/
import proofs.«131153_j89472758710571_1_alg».proof.Proof.Gen.KernelIdeal.Frame
import proofs.«131153_j89472758710571_1_alg».proof.ReferenceIdeal
import proofs.«131153_j89472758710571_1_alg».proof.Proof.Gen.ReferenceIdeal
import proofs.«131153_j89472758710571_1_alg».proof.Proof.LibDenseLayer
import proofs.«131153_j89472758710571_1_alg».proof.Proof.LibSageLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-buffer rectangle, as the constant function. -/
theorem hz : (![0, 0] : Fin 2 → Nat) = fun _ => 0 := funext fun a => by fin_cases a <;> rfl

/-! ## The first call: [100000, 500] · [500, 128] -/

/-- The dimension record of the band product, read at an output index and a contraction position: the left index takes
    the output row and the contraction position, the right index the contraction position and the output column. -/
theorem kd0_lhs0 (i : S2000x128.Idx) (q : dot_S2000x500_S500x128_S2000x128_1_0_0_1_n_n.contr.Idx) :
    (dot_S2000x500_S500x128_S2000x128_1_0_0_1_n_n.lhsIdx i q 0).val = (i 0).val := by
  unfold DotDims.lhsIdx
  rw [dif_neg (show ¬(0 : Fin S2000x500.rank) ∈ dot_S2000x500_S500x128_S2000x128_1_0_0_1_n_n.lhsBatch by decide), dif_pos (show (0 : Fin S2000x500.rank) ∈ dot_S2000x500_S500x128_S2000x128_1_0_0_1_n_n.lhsNonContracting by decide)]
  rfl
theorem kd0_lhs1 (i : S2000x128.Idx) (q : dot_S2000x500_S500x128_S2000x128_1_0_0_1_n_n.contr.Idx) :
    (dot_S2000x500_S500x128_S2000x128_1_0_0_1_n_n.lhsIdx i q 1).val = (q ⟨0, by decide⟩).val :=
  dot_S2000x500_S500x128_S2000x128_1_0_0_1_n_n.lhsIdx_val_of_single rfl i q
theorem kd0_rhs0 (i : S2000x128.Idx) (q : dot_S2000x500_S500x128_S2000x128_1_0_0_1_n_n.contr.Idx) :
    (dot_S2000x500_S500x128_S2000x128_1_0_0_1_n_n.rhsIdx i q 0).val = (q ⟨0, by decide⟩).val :=
  dot_S2000x500_S500x128_S2000x128_1_0_0_1_n_n.rhsIdx_val_of_single rfl i q
theorem kd0_rhs1 (i : S2000x128.Idx) (q : dot_S2000x500_S500x128_S2000x128_1_0_0_1_n_n.contr.Idx) :
    (dot_S2000x500_S500x128_S2000x128_1_0_0_1_n_n.rhsIdx i q 1).val = (i 1).val := by
  unfold DotDims.rhsIdx
  rw [dif_neg (show ¬(1 : Fin S500x128.rank) ∈ dot_S2000x500_S500x128_S2000x128_1_0_0_1_n_n.rhsBatch by decide), dif_pos (show (1 : Fin S500x128.rank) ∈ dot_S2000x500_S500x128_S2000x128_1_0_0_1_n_n.rhsNonContracting by decide)]
  rfl

/-- What the body stores, at (p, q): the band's row p against the right block's column q. A change of float format is
    the identity on the extended reals, and the accumulator starts at zero. -/
theorem pay0_apply (x0 : Vec Ideal S2000x500 .f32) (x1 : Vec Ideal S500x128 .f32) (p : Fin 2000) (q : Fin 128) :
    k0_pay1 (F := Ideal) x0 x1 (ix2 p q) = ∑ k : Fin 500, x0 (ix2 p k) * x1 (ix2 k q) := by
  unfold k0_pay1
  exact Cert.DenseLayer.matmul_rows_cols dot_S2000x500_S500x128_S2000x128_1_0_0_1_n_n rfl rfl kd0_lhs0 kd0_lhs1 kd0_rhs0 kd0_rhs1 none _ _ p q

/-- The same four index facts for the dimension record of the whole-array product. -/
theorem rd0_lhs0 (i : Cert.ReferenceIdeal.S100000x128.Idx) (q : Cert.ReferenceIdeal.dot_S100000x500_S500x128_S100000x128_1_0_0_1_n_n.contr.Idx) :
    (Cert.ReferenceIdeal.dot_S100000x500_S500x128_S100000x128_1_0_0_1_n_n.lhsIdx i q 0).val = (i 0).val := by
  unfold DotDims.lhsIdx
  rw [dif_neg (show ¬(0 : Fin Cert.ReferenceIdeal.S100000x500.rank) ∈ Cert.ReferenceIdeal.dot_S100000x500_S500x128_S100000x128_1_0_0_1_n_n.lhsBatch by decide), dif_pos (show (0 : Fin Cert.ReferenceIdeal.S100000x500.rank) ∈ Cert.ReferenceIdeal.dot_S100000x500_S500x128_S100000x128_1_0_0_1_n_n.lhsNonContracting by decide)]
  rfl
theorem rd0_lhs1 (i : Cert.ReferenceIdeal.S100000x128.Idx) (q : Cert.ReferenceIdeal.dot_S100000x500_S500x128_S100000x128_1_0_0_1_n_n.contr.Idx) :
    (Cert.ReferenceIdeal.dot_S100000x500_S500x128_S100000x128_1_0_0_1_n_n.lhsIdx i q 1).val = (q ⟨0, by decide⟩).val :=
  Cert.ReferenceIdeal.dot_S100000x500_S500x128_S100000x128_1_0_0_1_n_n.lhsIdx_val_of_single rfl i q
theorem rd0_rhs0 (i : Cert.ReferenceIdeal.S100000x128.Idx) (q : Cert.ReferenceIdeal.dot_S100000x500_S500x128_S100000x128_1_0_0_1_n_n.contr.Idx) :
    (Cert.ReferenceIdeal.dot_S100000x500_S500x128_S100000x128_1_0_0_1_n_n.rhsIdx i q 0).val = (q ⟨0, by decide⟩).val :=
  Cert.ReferenceIdeal.dot_S100000x500_S500x128_S100000x128_1_0_0_1_n_n.rhsIdx_val_of_single rfl i q
theorem rd0_rhs1 (i : Cert.ReferenceIdeal.S100000x128.Idx) (q : Cert.ReferenceIdeal.dot_S100000x500_S500x128_S100000x128_1_0_0_1_n_n.contr.Idx) :
    (Cert.ReferenceIdeal.dot_S100000x500_S500x128_S100000x128_1_0_0_1_n_n.rhsIdx i q 1).val = (i 1).val := by
  unfold DotDims.rhsIdx
  rw [dif_neg (show ¬(1 : Fin Cert.ReferenceIdeal.S500x128.rank) ∈ Cert.ReferenceIdeal.dot_S100000x500_S500x128_S100000x128_1_0_0_1_n_n.rhsBatch by decide), dif_pos (show (1 : Fin Cert.ReferenceIdeal.S500x128.rank) ∈ Cert.ReferenceIdeal.dot_S100000x500_S500x128_S100000x128_1_0_0_1_n_n.rhsNonContracting by decide)]
  rfl

/-- The product of the whole arrays. -/
abbrev G0 (X0 : FVec Ideal Cert.ReferenceIdeal.S100000x500 .f32) (X1 : FVec Ideal Cert.ReferenceIdeal.S500x128 .f32) : FVec Ideal Cert.ReferenceIdeal.S100000x128 .f32 :=
  Host.dotGeneral (F := Ideal) (φ₁ := .f32) (φ₂ := .f32) Cert.ReferenceIdeal.dot_S100000x500_S500x128_S100000x128_1_0_0_1_n_n none X0 X1

/-- Its entry (r, q) is ∑ k, X0(r,k) · X1(k,q). -/
theorem G0_apply (X0 : FVec Ideal Cert.ReferenceIdeal.S100000x500 .f32) (X1 : FVec Ideal Cert.ReferenceIdeal.S500x128 .f32) (r : Fin 100000) (q : Fin 128) :
    G0 X0 X1 (ix2 r q) = ∑ k : Fin 500, X0 (ix2 r k) * X1 (ix2 k q) :=
  Cert.SageLayer.dotGeneral_rows_cols Cert.ReferenceIdeal.dot_S100000x500_S500x128_S100000x128_1_0_0_1_n_n rfl rfl rd0_lhs0 rd0_lhs1 rd0_rhs0 rd0_rhs1 none X0 X1 r q

/-- An entry of a band's product is the entry of the whole product in that band's row: if row p of the band is row r of
    the left array and column q of the block is column q of the right array, the two sums agree term by term. -/
theorem band0_entry (X0 : FVec Ideal Cert.ReferenceIdeal.S100000x500 .f32) (X1 : FVec Ideal Cert.ReferenceIdeal.S500x128 .f32)
    (x0 : Vec Ideal S2000x500 .f32) (x1 : Vec Ideal S500x128 .f32) (r : Fin 100000) (p : Fin 2000) (q : Fin 128)
    (h0 : ∀ k : Fin 500, x0 (ix2 p k) = X0 (ix2 r k)) (h1 : ∀ k : Fin 500, x1 (ix2 k q) = X1 (ix2 k q)) :
    k0_pay1 (F := Ideal) x0 x1 (ix2 p q) = G0 X0 X1 (ix2 r q) := by
  rw [pay0_apply, G0_apply]
  exact Finset.sum_congr rfl fun k _ => by rw [h0 k, h1 k]

/-- The printed index maps, decided over the grid: at band t the left operand's and the output's block is row block t,
    column block 0; the right operand's block is block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 50 points. -/
theorem N0 : cfg0.N = 50 := by decide

set_option maxHeartbeats 400000 in
/-- What band t writes back is block t of the whole product: entry (p, q) of the band's product is entry
    (2000·t + p, q) of the whole product, since row p of the left block is row 2000·t + p of the left array and the right
    block is the whole right array. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz]
  simp only [View.ld_unit_zero (S := S2000x500) hz, View.ld_unit_zero (S := S500x128) hz]
  obtain ⟨e00, e01, e10, e11, e20, e21⟩ := idx_facts0 t
  have ht : t.val < 50 := N0 ▸ t.isLt
  funext j
  obtain ⟨p, q, rfl⟩ : ∃ (p : Fin 2000) (q : Fin 128), j = ix2 p q := ⟨j 0, j 1, eq_ix2 j⟩
  have hr : 2000 * t.val + p.val < 100000 := by have := p.isLt; omega
  show k0_pay1 (iblk0 V c 0 t) (iblk0 V c 1 t) (ix2 p q) = G0 (V c main_arg0) (V c main_arg2) (((cfg0.win 2).blk t).view.emb (ix2 p q))
  have he : ((cfg0.win 2).blk t).view.emb (ix2 p q) = ix2 (⟨2000 * t.val + p.val, hr⟩ : Fin 100000) q := by
    funext a; apply Fin.ext
    match a with
    | ⟨0, _⟩ => show win0_2.index t (0 : Fin 2) * 2000 + 1 * p.val = 2000 * t.val + p.val; rw [e20]; omega
    | ⟨1, _⟩ => show win0_2.index t (1 : Fin 2) * 128 + 1 * q.val = q.val; rw [e21]; omega
  rw [he]
  refine band0_entry _ _ _ _ _ p q (fun k => ?_) (fun k => ?_)
  · show V c main_arg0 (((cfg0.win 0).blk t).view.emb (ix2 p k)) = V c main_arg0 (ix2 (⟨2000 * t.val + p.val, hr⟩ : Fin 100000) k)
    refine congrArg _ (funext fun a => Fin.ext ?_)
    match a with
    | ⟨0, _⟩ => show win0_0.index t (0 : Fin 2) * 2000 + 1 * p.val = 2000 * t.val + p.val; rw [e00]; omega
    | ⟨1, _⟩ => show win0_0.index t (1 : Fin 2) * 500 + 1 * k.val = k.val; rw [e01]; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 500 + 1 * k.val = k.val; rw [e10]; omega
    | ⟨1, _⟩ => show win0_1.index t (1 : Fin 2) * 128 + 1 * q.val = q.val; rw [e11]; omega

/-- An index of the output array is in band t's block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row r of the output array is in band r / 2000, and every band is written back. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 2000 < cfg0.N := by rw [N0]; omega
  obtain ⟨-, -, -, -, e20, e21⟩ := idx_facts0 ⟨(i 0).val / 2000, hlt⟩
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e21]; omega

/-- After the first call its output array is the product of the two arrays it was given, whatever the buffers held
    when it was entered. -/
theorem arr0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x500_S500x128_S100000x128_1_0_0_1_n_n none
          (V c main_arg0 : FVec Ideal Cert.ReferenceIdeal.S100000x500 .f32) (V c main_arg2 : FVec Ideal Cert.ReferenceIdeal.S500x128 .f32) :=
  (dat0 (F := Ideal) V c).arrAt_eq_of_cover 2 (G0 (V c main_arg0) (V c main_arg2)) (fun t _ => flushed0_eq V c t) cover0

/-! ## The second call: [100000, 128] · [128, 128] -/

/-- The dimension record of the band product, read at an output index and a contraction position: the left index takes
    the output row and the contraction position, the right index the contraction position and the output column. -/
theorem kd1_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem kd1_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem kd1_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem kd1_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- What the body stores, at (p, q): the band's row p against the right block's column q. A cast of a shape to
    itself is the identity, a change of float format is the identity on the extended reals, and the accumulator starts
    at zero. -/
theorem pay1_apply (x0 : Vec Ideal S2000x128 .f32) (x1 : Vec Ideal S128x128 .f32) (p : Fin 2000) (q : Fin 128) :
    k1_pay1 (F := Ideal) x0 x1 (ix2 p q) = ∑ k : Fin 128, x0 (ix2 p k) * x1 (ix2 k q) := by
  unfold k1_pay1
  rw [shapeCast_self]
  exact Cert.DenseLayer.matmul_rows_cols dot_S2000x128_S128x128_S2000x128_1_0_0_1_n_n rfl rfl kd1_lhs0 kd1_lhs1 kd1_rhs0 kd1_rhs1 none _ _ p q

/-- The same four index facts for the dimension record of the whole-array product. -/
theorem rd1_lhs0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem rd1_lhs1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rd1_rhs0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rd1_rhs1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The product of the whole arrays. -/
abbrev G1 (X0 : FVec Ideal Cert.ReferenceIdeal.S100000x128 .f32) (X1 : FVec Ideal Cert.ReferenceIdeal.S128x128 .f32) : FVec Ideal Cert.ReferenceIdeal.S100000x128 .f32 :=
  Host.dotGeneral (F := Ideal) (φ₁ := .f32) (φ₂ := .f32) Cert.ReferenceIdeal.dot_S100000x128_S128x128_S100000x128_1_0_0_1_n_n none X0 X1

/-- Its entry (r, q) is ∑ k, X0(r,k) · X1(k,q). -/
theorem G1_apply (X0 : FVec Ideal Cert.ReferenceIdeal.S100000x128 .f32) (X1 : FVec Ideal Cert.ReferenceIdeal.S128x128 .f32) (r : Fin 100000) (q : Fin 128) :
    G1 X0 X1 (ix2 r q) = ∑ k : Fin 128, X0 (ix2 r k) * X1 (ix2 k q) :=
  Cert.SageLayer.dotGeneral_rows_cols Cert.ReferenceIdeal.dot_S100000x128_S128x128_S100000x128_1_0_0_1_n_n rfl rfl rd1_lhs0 rd1_lhs1 rd1_rhs0 rd1_rhs1 none X0 X1 r q

/-- An entry of a band's product is the entry of the whole product in that band's row: if row p of the band is row r of
    the left array and column q of the block is column q of the right array, the two sums agree term by term. -/
theorem band1_entry (X0 : FVec Ideal Cert.ReferenceIdeal.S100000x128 .f32) (X1 : FVec Ideal Cert.ReferenceIdeal.S128x128 .f32)
    (x0 : Vec Ideal S2000x128 .f32) (x1 : Vec Ideal S128x128 .f32) (r : Fin 100000) (p : Fin 2000) (q : Fin 128)
    (h0 : ∀ k : Fin 128, x0 (ix2 p k) = X0 (ix2 r k)) (h1 : ∀ k : Fin 128, x1 (ix2 k q) = X1 (ix2 k q)) :
    k1_pay1 (F := Ideal) x0 x1 (ix2 p q) = G1 X0 X1 (ix2 r q) := by
  rw [pay1_apply, G1_apply]
  exact Finset.sum_congr rfl fun k _ => by rw [h0 k, h1 k]

/-- The printed index maps, decided over the grid: at band t the left operand's and the output's block is row block t,
    column block 0; the right operand's block is block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has 50 points. -/
theorem N1 : cfg1.N = 50 := by decide

set_option maxHeartbeats 400000 in
/-- What band t writes back is block t of the whole product: entry (p, q) of the band's product is entry
    (2000·t + p, q) of the whole product, since row p of the left block is row 2000·t + p of the left array and the right
    block is the whole right array. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (G1 (V c main_v47) (V c main_arg4)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e00, e01, e10, e11, e20, e21⟩ := idx_facts1 t
  have ht : t.val < 50 := N1 ▸ t.isLt
  funext j
  obtain ⟨p, q, rfl⟩ : ∃ (p : Fin 2000) (q : Fin 128), j = ix2 p q := ⟨j 0, j 1, eq_ix2 j⟩
  have hr : 2000 * t.val + p.val < 100000 := by have := p.isLt; omega
  show k1_pay1 (iblk1 V c 0 t) (iblk1 V c 1 t) (ix2 p q) = G1 (V c main_v47) (V c main_arg4) (((cfg1.win 2).blk t).view.emb (ix2 p q))
  have he : ((cfg1.win 2).blk t).view.emb (ix2 p q) = ix2 (⟨2000 * t.val + p.val, hr⟩ : Fin 100000) q := by
    funext a; apply Fin.ext
    match a with
    | ⟨0, _⟩ => show win1_2.index t (0 : Fin 2) * 2000 + 1 * p.val = 2000 * t.val + p.val; rw [e20]; omega
    | ⟨1, _⟩ => show win1_2.index t (1 : Fin 2) * 128 + 1 * q.val = q.val; rw [e21]; omega
  rw [he]
  refine band1_entry _ _ _ _ _ p q (fun k => ?_) (fun k => ?_)
  · show V c main_v47 (((cfg1.win 0).blk t).view.emb (ix2 p k)) = V c main_v47 (ix2 (⟨2000 * t.val + p.val, hr⟩ : Fin 100000) k)
    refine congrArg _ (funext fun a => Fin.ext ?_)
    match a with
    | ⟨0, _⟩ => show win1_0.index t (0 : Fin 2) * 2000 + 1 * p.val = 2000 * t.val + p.val; rw [e00]; omega
    | ⟨1, _⟩ => show win1_0.index t (1 : Fin 2) * 128 + 1 * k.val = k.val; rw [e01]; omega
  · show V c main_arg4 (((cfg1.win 1).blk t).view.emb (ix2 k q)) = V c main_arg4 (ix2 k q)
    refine congrArg _ (funext fun a => Fin.ext ?_)
    match a with
    | ⟨0, _⟩ => show win1_1.index t (0 : Fin 2) * 128 + 1 * k.val = k.val; rw [e10]; omega
    | ⟨1, _⟩ => show win1_1.index t (1 : Fin 2) * 128 + 1 * q.val = q.val; rw [e11]; omega

/-- An index of the output array is in band t's block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Row r of the output array is in band r / 2000, and every band is written back. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 2000 < cfg1.N := by rw [N1]; omega
  obtain ⟨-, -, -, -, e20, e21⟩ := idx_facts1 ⟨(i 0).val / 2000, hlt⟩
  refine ⟨⟨(i 0).val / 2000, hlt⟩, flush1_2 _, ?_⟩
  rw [mem_blk1]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, hlt⟩ (1 : Fin 2) * 128 ≤ (i 1).val ∧ (i 1).val < win1_2.index ⟨(i 0).val / 2000, hlt⟩ (1 : Fin 2) * 128 + 128
    rw [e21]; omega

/-- After the second call its output array is the product of the two arrays it was given. -/
theorem arr1 (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S100000x128_S128x128_S100000x128_1_0_0_1_n_n none
          (V c main_v47 : FVec Ideal Cert.ReferenceIdeal.S100000x128 .f32) (V c main_arg4 : FVec Ideal Cert.ReferenceIdeal.S128x128 .f32) :=
  (dat1 (F := Ideal) V c).arrAt_eq_of_cover 2 (G1 (V c main_v47) (V c main_arg4)) (fun t _ => flushed1_eq V c t) cover1

end Cert.KernelIdeal.RegionVal

end
-- ==== Proof.HostChainB.lean ====
/-
  The kernel program from its first call to the end of its second, read as functions of the arguments.

  The first call leaves x · W1 in its output array. The host operations after it gather that product at the edge
  sources, scale each gathered row by the edge's weight, add the rows up at the edge targets, add the bias and clamp at
  zero: the first layer's activations. The second call leaves their product with W2. These are the reference program's
  operations in the reference's order, so each buffer holds the reference's stage of the same name.
-/
import proofs.«131153_j89472758710571_1_alg».proof.Proof.Gen.KernelIdeal.Frame
import proofs.«131153_j89472758710571_1_alg».proof.Proof.Gen.ReferenceIdeal
import proofs.«131153_j89472758710571_1_alg».proof.Proof.RefRead
import proofs.«131153_j89472758710571_1_alg».proof.Proof.LibConcatCongr
import proofs.«131153_j89472758710571_1_alg».proof.Proof.HostChainA
import proofs.«131153_j89472758710571_1_alg».proof.Proof.Region01
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first call's output: x · W1. -/
theorem at4_h1 : W4 m ρ c (Proc.devRef .tc main_v30) = Cert.ReferenceIdeal.ReadP.val_main_v7 (F := Ideal) (m ((c : Thread nD τ).loc main_arg0)) (m ((c : Thread nD τ).loc main_arg2)) := by
  have h0 : V3 m ρ c main_arg0 = m ((c : Thread nD τ).loc main_arg0) := at3_arg0 m ρ c
  have h2 : V3 m ρ c main_arg2 = m ((c : Thread nD τ).loc main_arg2) := at3_arg2 m ρ c
  refine (W4_arr m ρ c 2).trans ?_
  rw [Cert.KernelIdeal.RegionVal.arr0 (V3 m ρ) c, h0, h2]
  rfl

/-! ## Between the calls -/

/-- Closes the claim that no operation of a literal list of host operations writes a given literal buffer: each
    operation writes its one result buffer, and that buffer is another one. -/
local macro "not_written " ops:ident : tactic => `(tactic| exact List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer no operation of the two host stretches between the calls writes holds at the second call's entry what
    it held at the first call's exit. -/
theorem W6_keep (b : Ref sig .tc)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes) :
    W6 m ρ c (Proc.devRef .tc b) = W4 m ρ c (Proc.devRef .tc b) :=
  (StableHlo.after_of_forall_not_mem (b := Proc.devRef .tc b) _ _ h2).trans
    (StableHlo.after_of_forall_not_mem (b := Proc.devRef .tc b) _ _ h1)

set_option maxHeartbeats 400000 in
/-- After the host operations that follow the first call: the first layer before the clamp. The gather reads the first
    call's output at the edge sources, the scatter adds the scaled rows at the edge targets, and the bias is added. -/
theorem at5_pre1 : W5 m ρ c (Proc.devRef .tc main_v46)
    = Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v46) = _
  after_results_simp
  rw [at4_h1, at4_src, at4_dst, at4_norm, at4_arg3]
  rfl

set_option maxHeartbeats 400000 in
/-- The clamp at zero, from any contents: the maximum of the buffer it reads with the zero array. -/
theorem relu_stage (V : Valuation τ sig (Elt Ideal)) :
    @Eq ((⟨S100000x128, .f32⟩ : BufTy).Contents (Elt Ideal))
      (StableHlo.after hostOps1_1 V (Proc.devRef .tc main_v47))
      (maximumf (F := Ideal) (s := S100000x128) (φ := .f32) (V (Proc.devRef .tc main_v46))
        (Cert.ReferenceIdeal.ReadP.val_main_call1_v0 (F := Ideal))) := by
  after_results_simp
  rfl

/-! ## At the second call's entry -/

/-- The first layer's activations. -/
theorem at6_act1 : W6 m ρ c (Proc.devRef .tc main_v47)
    = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (relu_stage (W5 m ρ c)).trans ?_
  rw [at5_pre1]
  rfl

theorem at6_src : W6 m ρ c (Proc.devRef .tc main_v3) = Cert.ReferenceIdeal.ReadP.val_main_v3 (F := Ideal) (m ((c : Thread nD τ).loc main_arg1)) := by
  rw [W6_keep m ρ c main_v3 (by not_written hostOps1) (by not_written hostOps1_1), at4_src]
theorem at6_dst : W6 m ρ c (Proc.devRef .tc main_v6) = Cert.ReferenceIdeal.ReadP.val_main_v6 (F := Ideal) (m ((c : Thread nD τ).loc main_arg1)) := by
  rw [W6_keep m ρ c main_v6 (by not_written hostOps1) (by not_written hostOps1_1), at4_dst]
theorem at6_norm : W6 m ρ c (Proc.devRef .tc main_v29) = Cert.ReferenceIdeal.ReadP.val_main_v30 (F := Ideal) (m ((c : Thread nD τ).loc main_arg1)) := by
  rw [W6_keep m ρ c main_v29 (by not_written hostOps1) (by not_written hostOps1_1), at4_norm]
theorem at6_arg4 : W6 m ρ c (Proc.devRef .tc main_arg4) = (m ((c : Thread nD τ).loc main_arg4)) := by
  rw [W6_keep m ρ c main_arg4 (by not_written hostOps1) (by not_written hostOps1_1), at4_arg4]
theorem at6_arg5 : W6 m ρ c (Proc.devRef .tc main_arg5) = (m ((c : Thread nD τ).loc main_arg5)) := by
  rw [W6_keep m ρ c main_arg5 (by not_written hostOps1) (by not_written hostOps1_1), at4_arg5]
theorem at6_arg6 : W6 m ρ c (Proc.devRef .tc main_arg6) = (m ((c : Thread nD τ).loc main_arg6)) := by
  rw [W6_keep m ρ c main_arg6 (by not_written hostOps1) (by not_written hostOps1_1), at4_arg6]
theorem at6_arg7 : W6 m ρ c (Proc.devRef .tc main_arg7) = (m ((c : Thread nD τ).loc main_arg7)) := by
  rw [W6_keep m ρ c main_arg7 (by not_written hostOps1) (by not_written hostOps1_1), at4_arg7]

/-! ## Across the second call -/

/-- The second call's output: the first layer's activations times W2. -/
theorem at7_h2 : W7 m ρ c (Proc.devRef .tc main_v48)
    = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h47 : V6 m ρ c main_v47 = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := at6_act1 m ρ c
  have h4 : V6 m ρ c main_arg4 = m ((c : Thread nD τ).loc main_arg4) := at6_arg4 m ρ c
  refine (W7_arr m ρ c 2).trans ?_
  rw [Cert.KernelIdeal.RegionVal.arr1 (V6 m ρ) c, h47, h4]
  rfl

theorem at7_src : W7 m ρ c (Proc.devRef .tc main_v3) = Cert.ReferenceIdeal.ReadP.val_main_v3 (F := Ideal) (m ((c : Thread nD τ).loc main_arg1)) :=
  (W7_of_ne m ρ c main_v3 (by decide)).trans (at6_src m ρ c)
theorem at7_dst : W7 m ρ c (Proc.devRef .tc main_v6) = Cert.ReferenceIdeal.ReadP.val_main_v6 (F := Ideal) (m ((c : Thread nD τ).loc main_arg1)) :=
  (W7_of_ne m ρ c main_v6 (by decide)).trans (at6_dst m ρ c)
theorem at7_norm : W7 m ρ c (Proc.devRef .tc main_v29) = Cert.ReferenceIdeal.ReadP.val_main_v30 (F := Ideal) (m ((c : Thread nD τ).loc main_arg1)) :=
  (W7_of_ne m ρ c main_v29 (by decide)).trans (at6_norm m ρ c)
theorem at7_arg5 : W7 m ρ c (Proc.devRef .tc main_arg5) = (m ((c : Thread nD τ).loc main_arg5)) :=
  (W7_of_ne m ρ c main_arg5 (by decide)).trans (at6_arg5 m ρ c)
theorem at7_arg6 : W7 m ρ c (Proc.devRef .tc main_arg6) = (m ((c : Thread nD τ).loc main_arg6)) :=
  (W7_of_ne m ρ c main_arg6 (by decide)).trans (at6_arg6 m ρ c)
theorem at7_arg7 : W7 m ρ c (Proc.devRef .tc main_arg7) = (m ((c : Thread nD τ).loc main_arg7)) :=
  (W7_of_ne m ρ c main_arg7 (by decide)).trans (at6_arg7 m ρ c)

end Cert.KernelIdeal.HostChain

end
-- ==== Proof.Spec.lean ====
/-
  The last layer of the network as a function of its three arrays, entry by entry, over the extended reals.

  For node features `h` ([N, 128]), weights `w` ([128, 16]) and a bias `b` (16 entries):
      logit(r, c)   = (∑ k, h(r,k) · w(k,c)) + b(c)
      top(r)        = max(−∞, the maximum of logit(r, ·) taken from −∞)
      softmax(r, c) = exp(logit(r,c) − top(r)) / ∑ c', exp(logit(r,c') − top(r))
  (−∞ is written as the float word both programs print for it.) Every row depends on row r of `h` alone, which is why a
  band of rows can be computed from that band of `h`.
-/
import Idealize.ShloMosaic.PureOps.Ideal
import Idealize.ShloMosaic.Lib.ValueIdx

noncomputable section

namespace Cert.Spec

open Idealize.ShloMosaic Idealize.ShloMosaic.ValueIdx

/-- Entry (r, c) of the logits: row r of `h` against column c of `w`, plus the bias. -/
def logit {N : ℕ} (h : (⟨2, ![N, 128]⟩ : Shape).Idx → EReal) (w : (⟨2, ![128, 16]⟩ : Shape).Idx → EReal) (b : Fin 16 → EReal)
    (r : Fin N) (c : Fin 16) : EReal :=
  (∑ k : Fin 128, h (ix2 r k) * w (ix2 k c)) + b c

/-- The value subtracted from row r before the exponential: the row's maximum, taken from −∞ and once more against −∞. -/
def rowTop {N : ℕ} (h : (⟨2, ![N, 128]⟩ : Shape).Idx → EReal) (w : (⟨2, ![128, 16]⟩ : Shape).Idx → EReal) (b : Fin 16 → EReal)
    (r : Fin N) : EReal :=
  max (Ideal.ofBits .f32 0xFF800000#32)
    ((Finset.univ : Finset (Fin 16)).fold max (Ideal.ofBits .f32 0xFF800000#32) fun c' => logit h w b r c')

/-- Entry (r, c) of the softmax over the rows of the logits. -/
def softmaxAt {N : ℕ} (h : (⟨2, ![N, 128]⟩ : Shape).Idx → EReal) (w : (⟨2, ![128, 16]⟩ : Shape).Idx → EReal) (b : Fin 16 → EReal)
    (r : Fin N) (c : Fin 16) : EReal :=
  Ideal.div (Ideal.exp (logit h w b r c - rowTop h w b r))
    (∑ c' : Fin 16, Ideal.exp (logit h w b r c' - rowTop h w b r))

end Cert.Spec

end
-- ==== Proof.HostSoftmaxDef.lean ====
/-
  The reference's last layer as ONE function of the node features, the weights and the bias: the matrix product, the
  bias spread over the rows, and the softmax over each row, in the host operations the reference program is printed in.
-/
import proofs.«131153_j89472758710571_1_alg».proof.ReferenceIdeal
import proofs.«131153_j89472758710571_1_alg».proof.Proof.Gen.ReferenceIdeal
import Idealize.ShloMosaic.PureOps.Ideal

noncomputable section

namespace Cert.RefLayer

open Cert.ReferenceIdeal Cert.ReferenceIdeal.Gen Idealize.ShloMosaic

/-- The logits: `h · w` plus the bias spread over the rows. -/
def hostLogits (h : FVec Ideal S100000x128 .f32) (w : FVec Ideal S128x16 .f32) (b : FVec Ideal S16 .f32) : FVec Ideal S100000x16 .f32 :=
  addf (Host.dotGeneral dot_S100000x128_S128x16_S100000x16_1_0_0_1_n_n none h w)
    (broadcastInDim S100000x16 ![0, 1] bcast_S1x16_S100000x16_0_1 (broadcastInDim S1x16 ![1] bcast_S16_S1x16_1 b))

/-- The softmax over each row of an array of logits. -/
def hostRowSoftmax (z : FVec Ideal S100000x16 .f32) : FVec Ideal S100000x16 .f32 :=
  Host.divf
    (Host.exp (subf z (broadcastInDim S100000x16 ![0, 1] bcast_S100000x1_S100000x16_0_1 (broadcastInDim S100000x1 ![0] bcast_S100000_S100000x1_0
      (maximumf (broadcastInDim S100000 ![] bcast_S_S100000 (constant (F := Ideal) S_ .f32 0xFF800000#32))
        (Host.reduce FloatOps.maximumf z (constant (F := Ideal) S_ .f32 0xFF800000#32) reducesTo_S100000x16_S100000_d1 h_S_))))))
    (broadcastInDim S100000x16 ![0, 1] bcast_S100000x1_S100000x16_0_1 (broadcastInDim S100000x1 ![0] bcast_S100000_S100000x1_0
      (Host.reduceAdd
        (Host.exp (subf z (broadcastInDim S100000x16 ![0, 1] bcast_S100000x1_S100000x16_0_1 (broadcastInDim S100000x1 ![0] bcast_S100000_S100000x1_0
          (maximumf (broadcastInDim S100000 ![] bcast_S_S100000 (constant (F := Ideal) S_ .f32 0xFF800000#32))
            (Host.reduce FloatOps.maximumf z (constant (F := Ideal) S_ .f32 0xFF800000#32) reducesTo_S100000x16_S100000_d1 h_S_))))))
        (constant (F := Ideal) S_ .f32 0x00000000#32) reducesTo_S100000x16_S100000_d1 h_S_)))

/-- The reference's last layer. -/
def hostSoftmaxDense (h : FVec Ideal S100000x128 .f32) (w : FVec Ideal S128x16 .f32) (b : FVec Ideal S16 .f32) : FVec Ideal S100000x16 .f32 :=
  hostRowSoftmax (hostLogits h w b)

end Cert.RefLayer

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«131153_j89472758710571_1_alg».proof.Proof.LibKeepdims
import proofs.«131153_j89472758710571_1_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibHostSoftmax.lean ====
/-
  The host's softmax over the rows of a matrix, read at an entry.

  For an [a, b] matrix `M` of extended reals scaled by a scalar `s`, the host computes, with the reduced axis kept as a
  unit axis and spread back over the row:
      m(p)   = max(n₁, the maximum over row p of M · s taken from n₀)        (n₀, n₁ scalars; −∞ where this is used)
      e(p,c) = exp(M(p,c) · s − m(p))
      out(p,c) = e(p,c) / (z + ∑ c', e(p,c'))                                (z a scalar; 0 where this is used)
  `rowMax_apply` and `rowSum_apply` read the two one-axis reductions at row p as a fold of max and a sum over the row's
  entries (a maximum commutes and associates, so the order the reduction visits the row in does not matter);
  `keepdims_apply` reads a vector placed as a column [a, 1] and spread to [a, b] at (p, c) as the vector's entry p;
  `scalar_apply` reads a scalar spread to any shape; `softmax_apply` puts them together. All are generic in a and b.
-/
import Idealize.ShloMosaic.PureOps.Ideal.Laws
import Idealize.ShloMosaic.PureOps.Reduce
import Idealize.ShloMosaic.Lib.ValueIdx
import Idealize.ShloMosaic.Lib.Pipeline.Value
import proofs.«131153_j89472758710571_1_alg».proof.Proof.LibMinReduce

noncomputable section

namespace Cert.HostSoftmax

open Idealize.ShloMosaic Idealize.ShloMosaic.ValueIdx

/-- A scalar spread to a shape reads the scalar at every index. -/
theorem scalar_apply {α : Type} {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

/-- A vector placed as a column [a, 1] and spread along the unit axis to [a, b] reads, at (p, c), the vector's entry p. -/
theorem keepdims_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => show 0 = if (1 : ℕ) = 1 then 0 else c.val; rw [if_pos rfl]
  · match ax with
    | ⟨0, _⟩ =>
      show p.val = if a = 1 then 0 else p.val
      split
      · have := p.isLt; omega
      · rfl

/-- The host's maximum reduction along the rows, read at row p: the fold of max from the initial value over the row. -/
theorem rowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  exact congrArg (fun f => Finset.fold max (init (Shape.Idx.first hu)) f (Finset.univ : Finset (Fin b)))
    (funext fun c => congrArg x (Cert.MinReduce.lift_cols h p c))

/-- The host's sum along the rows, read at row p: the initial value plus the sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ c : Fin b, x (ix2 p c) := by
  simp only [Host.reduceAdd, Ideal.hostReduceAdd_def]
  rw [Ideal.hostReduceAdd_single h' h]
  exact congrArg (_ + ·) (Finset.sum_congr rfl fun c _ => congrArg x (Cert.MinReduce.lift_cols h p c))

/-- The host's softmax of the rows of `M · s`, read at (p, c). -/
theorem softmax_apply {a b : ℕ} (M : FVec Ideal ⟨2, ![a, b]⟩ .f32) (sc n₀ n₁ z : (⟨0, ![]⟩ : Shape).Idx → Ideal .f32)
    (hs : (⟨0, ![]⟩ : Shape).BroadcastsInDim ⟨2, ![a, b]⟩ ![]) (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    Host.divf
        (Host.exp (subf (mulf M (broadcastInDim ⟨2, ![a, b]⟩ ![] hs sc))
          (broadcastInDim ⟨2, ![a, b]⟩ ![0, 1] h2 (broadcastInDim ⟨2, ![a, 1]⟩ ![0] h1
            (maximumf (broadcastInDim ⟨1, ![a]⟩ ![] hv n₁)
              (Host.reduce FloatOps.maximumf (mulf M (broadcastInDim ⟨2, ![a, b]⟩ ![] hs sc)) n₀ h' hu))))))
        (broadcastInDim ⟨2, ![a, b]⟩ ![0, 1] h2 (broadcastInDim ⟨2, ![a, 1]⟩ ![0] h1
          (Host.reduceAdd
            (Host.exp (subf (mulf M (broadcastInDim ⟨2, ![a, b]⟩ ![] hs sc))
              (broadcastInDim ⟨2, ![a, b]⟩ ![0, 1] h2 (broadcastInDim ⟨2, ![a, 1]⟩ ![0] h1
                (maximumf (broadcastInDim ⟨1, ![a]⟩ ![] hv n₁)
                  (Host.reduce FloatOps.maximumf (mulf M (broadcastInDim ⟨2, ![a, b]⟩ ![] hs sc)) n₀ h' hu))))))
            z h' hu)))
        (ix2 p c)
      = Ideal.div
          (Ideal.exp (M (ix2 p c) * sc ix0
            - max (n₁ ix0) ((Finset.univ : Finset (Fin b)).fold max (n₀ (Shape.Idx.first hu)) fun c' => M (ix2 p c') * sc ix0)))
          (z (Shape.Idx.first hu) + ∑ c'' : Fin b, Ideal.exp (M (ix2 p c'') * sc ix0
            - max (n₁ ix0) ((Finset.univ : Finset (Fin b)).fold max (n₀ (Shape.Idx.first hu)) fun c' => M (ix2 p c') * sc ix0))) := by
  -- the scaled scores at an entry, the row maximum spread back, the exponentials
  have hX : ∀ c' : Fin b, mulf M (broadcastInDim ⟨2, ![a, b]⟩ ![] hs sc) (ix2 p c') = M (ix2 p c') * sc ix0 := fun c' =>
    congrArg (M (ix2 p c') * ·) (scalar_apply sc ![] hs (ix2 p c'))
  have hK : ∀ c' : Fin b,
      broadcastInDim ⟨2, ![a, b]⟩ ![0, 1] h2 (broadcastInDim ⟨2, ![a, 1]⟩ ![0] h1
        (maximumf (broadcastInDim ⟨1, ![a]⟩ ![] hv n₁)
          (Host.reduce FloatOps.maximumf (mulf M (broadcastInDim ⟨2, ![a, b]⟩ ![] hs sc)) n₀ h' hu))) (ix2 p c')
        = max (n₁ ix0) ((Finset.univ : Finset (Fin b)).fold max (n₀ (Shape.Idx.first hu)) fun c'' => M (ix2 p c'') * sc ix0) := fun c' =>
    (keepdims_apply _ h1 h2 p c').trans (congrArg₂ max (scalar_apply n₁ ![] hv (ix1 p))
      ((rowMax_apply _ n₀ h' h hu p).trans
        (congrArg (fun f => Finset.fold max (n₀ (Shape.Idx.first hu)) f (Finset.univ : Finset (Fin b))) (funext hX))))
  have hE : ∀ c' : Fin b,
      Host.exp (subf (mulf M (broadcastInDim ⟨2, ![a, b]⟩ ![] hs sc))
        (broadcastInDim ⟨2, ![a, b]⟩ ![0, 1] h2 (broadcastInDim ⟨2, ![a, 1]⟩ ![0] h1
          (maximumf (broadcastInDim ⟨1, ![a]⟩ ![] hv n₁)
            (Host.reduce FloatOps.maximumf (mulf M (broadcastInDim ⟨2, ![a, b]⟩ ![] hs sc)) n₀ h' hu))))) (ix2 p c')
        = Ideal.exp (M (ix2 p c') * sc ix0
            - max (n₁ ix0) ((Finset.univ : Finset (Fin b)).fold max (n₀ (Shape.Idx.first hu)) fun c'' => M (ix2 p c'') * sc ix0)) := fun c' =>
    congrArg₂ (fun u v => Ideal.exp (u - v)) (hX c') (hK c')
  exact congrArg₂ Ideal.div (hE c)
    ((keepdims_apply _ h1 h2 p c).trans ((rowSum_apply _ z h' h hu p).trans
      (congrArg (z (Shape.Idx.first hu) + ·) (Finset.sum_congr rfl fun c' _ => hE c'))))

end Cert.HostSoftmax

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.SoftmaxEntry.lean ====
/-
  The last layer read at one entry, on both sides.

  One band of the kernel's last call computes, from 2000 rows of node features, the weights and the bias row, the
  logits of those rows, each row's maximum, the exponentials of the differences, their row sums and the quotients: at
  (p, q) that is `Spec.softmaxAt` of the band. The reference's host operations compute the same thing for all 100000
  rows at once: at (r, q) that is `Spec.softmaxAt` of the whole array. A maximum over a row does not depend on the
  order the row is visited in, and a row sum started from 0 is the row sum.
-/
import proofs.«131153_j89472758710571_1_alg».proof.Proof.Gen.KernelIdeal.Frame
import proofs.«131153_j89472758710571_1_alg».proof.ReferenceIdeal
import proofs.«131153_j89472758710571_1_alg».proof.Proof.Gen.ReferenceIdeal
import proofs.«131153_j89472758710571_1_alg».proof.Proof.Spec
import proofs.«131153_j89472758710571_1_alg».proof.Proof.HostSoftmaxDef
import proofs.«131153_j89472758710571_1_alg».proof.Proof.LibDenseLayer
import proofs.«131153_j89472758710571_1_alg».proof.Proof.LibSageLayer
import proofs.«131153_j89472758710571_1_alg».proof.Proof.LibRowReduce
import proofs.«131153_j89472758710571_1_alg».proof.Proof.LibHostSoftmax
import proofs.«131153_j89472758710571_1_alg».proof.Proof.LibTileMask
import proofs.«131153_j89472758710571_1_alg».proof.Proof.LibBcastInDim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SoftmaxEntry

open Cert.KernelIdeal Cert.KernelIdeal.Gen Idealize.ShloMosaic Idealize.ShloMosaic.ValueIdx

/-- The four index facts of the last call's dimension numbers: the left operand is read at the output row and the
    contraction position, the right operand at the contraction position and the output column. -/
theorem kdot_l0 (i : S2000x16.Idx) (k : dot_S2000x128_S128x16_S2000x16_1_0_0_1_n_n.contr.Idx) :
    (dot_S2000x128_S128x16_S2000x16_1_0_0_1_n_n.lhsIdx i k 0).val = (i 0).val := by
  simp [DotDims.lhsIdx, dot_S2000x128_S128x16_S2000x16_1_0_0_1_n_n]; rfl
theorem kdot_l1 (i : S2000x16.Idx) (k : dot_S2000x128_S128x16_S2000x16_1_0_0_1_n_n.contr.Idx) :
    (dot_S2000x128_S128x16_S2000x16_1_0_0_1_n_n.lhsIdx i k 1).val = (k ⟨0, by decide⟩).val := by
  simp [DotDims.lhsIdx, dot_S2000x128_S128x16_S2000x16_1_0_0_1_n_n]; rfl
theorem kdot_r0 (i : S2000x16.Idx) (k : dot_S2000x128_S128x16_S2000x16_1_0_0_1_n_n.contr.Idx) :
    (dot_S2000x128_S128x16_S2000x16_1_0_0_1_n_n.rhsIdx i k 0).val = (k ⟨0, by decide⟩).val := by
  simp [DotDims.rhsIdx, dot_S2000x128_S128x16_S2000x16_1_0_0_1_n_n]; rfl
theorem kdot_r1 (i : S2000x16.Idx) (k : dot_S2000x128_S128x16_S2000x16_1_0_0_1_n_n.contr.Idx) :
    (dot_S2000x128_S128x16_S2000x16_1_0_0_1_n_n.rhsIdx i k 1).val = (i 1).val := by
  simp [DotDims.rhsIdx, dot_S2000x128_S128x16_S2000x16_1_0_0_1_n_n]; rfl

/-- The logits of a band at (p, c). -/
theorem kernel_logit (x0 : Vec Ideal S2000x128 .f32) (x1 : Vec Ideal S128x16 .f32) (x2 : Vec Ideal S1x16 .f32) (p : Fin 2000) (c : Fin 16) :
    addf (matmul dot_S2000x128_S128x16_S2000x16_1_0_0_1_n_n none
        (truncf .bf16 (shapeCast S2000x128 x0 shapeCasts_S2000x128_S2000x128) bitsLt_bf16_f32 : FVec Ideal S2000x128 .bf16)
        (truncf .bf16 x1 bitsLt_bf16_f32 : FVec Ideal S128x16 .bf16) (constant S2000x16 .f32 0x00000000#32))
      (broadcastTo S2000x16 (shapeCast S1x16 x2 shapeCasts_S1x16_S1x16) broadcasts_S1x16_S2000x16) (ix2 p c)
      = Cert.Spec.logit x0 x1 (fun c => x2 (ix2 (0 : Fin 1) c)) p c := by
  rw [addf_apply, shapeCast_self, shapeCast_self, broadcastTo_1b_ab_apply]
  unfold Cert.Spec.logit
  refine congrArg (· + x2 (ix2 (0 : Fin 1) c)) ?_
  exact Cert.DenseLayer.matmul_rows_cols dot_S2000x128_S128x16_S2000x16_1_0_0_1_n_n rfl rfl kdot_l0 kdot_l1 kdot_r0 kdot_r1 none _ _ p c

/-- The value subtracted from row p of a band of logits `Z`, spread back over the row: the row's maximum, taken from
    −∞ and once more against −∞. -/
theorem kernel_top (Z : FVec Ideal S2000x16 .f32) (p : Fin 2000) (c : Fin 16) :
    broadcastTo S2000x16 (shapeCast S2000x1
        (maximumf (broadcast S2000 (Scalar.ofBits .f32 0xFF800000#32 : Ideal .f32))
          (multiReduction .maximumf [1] S2000 Z 0xFF800000#32 reduces_S2000x16_S2000 (.inl rfl) rfl))
        shapeCasts_S2000_S2000x1) broadcasts_S2000x1_S2000x16 (ix2 p c)
      = max (Ideal.ofBits .f32 0xFF800000#32)
          ((Finset.univ : Finset (Fin 16)).fold max (Ideal.ofBits .f32 0xFF800000#32) fun c' => Z (ix2 p c')) :=
  (Cert.RowReduce.keepdims_apply _ shapeCasts_S2000_S2000x1 broadcasts_S2000x1_S2000x16 p c).trans
    (congrArg (max (Ideal.ofBits .f32 0xFF800000#32) ·)
      (Cert.RowReduce.rowMax_apply Z 0xFF800000#32 reduces_S2000x16_S2000 (.inl rfl) rfl p))

/-- The softmax over the rows of a band of logits `Z`, in the operations of the kernel's last call, at (p, q). -/
theorem kernel_softmax (Z : FVec Ideal S2000x16 .f32) (p : Fin 2000) (q : Fin 16) :
    divf
      (exp (subf Z (broadcastTo S2000x16 (shapeCast S2000x1
        (maximumf (broadcast S2000 (Scalar.ofBits .f32 0xFF800000#32 : Ideal .f32))
          (multiReduction .maximumf [1] S2000 Z 0xFF800000#32 reduces_S2000x16_S2000 (.inl rfl) rfl))
        shapeCasts_S2000_S2000x1) broadcasts_S2000x1_S2000x16)))
      (broadcastTo S2000x16 (shapeCast S2000x1
        (multiReduction .add [1] S2000
          (exp (subf Z (broadcastTo S2000x16 (shapeCast S2000x1
            (maximumf (broadcast S2000 (Scalar.ofBits .f32 0xFF800000#32 : Ideal .f32))
              (multiReduction .maximumf [1] S2000 Z 0xFF800000#32 reduces_S2000x16_S2000 (.inl rfl) rfl))
            shapeCasts_S2000_S2000x1) broadcasts_S2000x1_S2000x16)))
          0x00000000#32 reduces_S2000x16_S2000 (.inl rfl) rfl)
        shapeCasts_S2000_S2000x1) broadcasts_S2000x1_S2000x16) (ix2 p q)
    = Ideal.div
        (Ideal.exp (Z (ix2 p q) - max (Ideal.ofBits .f32 0xFF800000#32)
          ((Finset.univ : Finset (Fin 16)).fold max (Ideal.ofBits .f32 0xFF800000#32) fun c' => Z (ix2 p c'))))
        (∑ c'' : Fin 16, Ideal.exp (Z (ix2 p c'') - max (Ideal.ofBits .f32 0xFF800000#32)
          ((Finset.univ : Finset (Fin 16)).fold max (Ideal.ofBits .f32 0xFF800000#32) fun c' => Z (ix2 p c')))) := by
  -- the exponential of an entry less its row's top value
  have hE : ∀ c' : Fin 16,
      exp (subf Z (broadcastTo S2000x16 (shapeCast S2000x1
        (maximumf (broadcast S2000 (Scalar.ofBits .f32 0xFF800000#32 : Ideal .f32))
          (multiReduction .maximumf [1] S2000 Z 0xFF800000#32 reduces_S2000x16_S2000 (.inl rfl) rfl))
        shapeCasts_S2000_S2000x1) broadcasts_S2000x1_S2000x16)) (ix2 p c')
        = Ideal.exp (Z (ix2 p c') - max (Ideal.ofBits .f32 0xFF800000#32)
            ((Finset.univ : Finset (Fin 16)).fold max (Ideal.ofBits .f32 0xFF800000#32) fun c'' => Z (ix2 p c''))) := fun c' =>
    congrArg (fun v => Ideal.exp (Z (ix2 p c') - v)) (kernel_top Z p c')
  -- the quotient: the row sum spread back over the row is the sum of the row's exponentials
  exact congrArg₂ Ideal.div (hE q)
    ((Cert.RowReduce.keepdims_apply _ shapeCasts_S2000_S2000x1 broadcasts_S2000x1_S2000x16 p q).trans
      ((Cert.RowReduce.rowSum_apply _ 0x00000000#32 reduces_S2000x16_S2000 (.inl rfl) rfl p).trans
        (Finset.sum_congr rfl fun c' _ => hE c')))

/-- The value the kernel's last call stores for a band, at row p of the band and class q. -/
theorem kernel_entry (x0 : Vec Ideal S2000x128 .f32) (x1 : Vec Ideal S128x16 .f32) (x2 : Vec Ideal S1x16 .f32) (p : Fin 2000) (q : Fin 16) :
    k2_pay1 (F := Ideal) x0 x1 x2 (ix2 p q) = Cert.Spec.softmaxAt x0 x1 (fun c => x2 (ix2 (0 : Fin 1) c)) p q := by
  unfold Cert.Spec.softmaxAt Cert.Spec.rowTop
  simp only [← kernel_logit x0 x1 x2 p]
  exact kernel_softmax _ p q

/-- The four index facts of the reference's last matrix product: the left operand is read at the output row and the
    contraction position, the right operand at the contraction position and the output column. -/
theorem hdot_l0 (i : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.lhsIdx i k 0).val = (i 0).val := by
  simp [DotDims.lhsIdx, Cert.ReferenceIdeal.dot_S100000x128_S128x16_S100000x16_1_0_0_1_n_n]; rfl
theorem hdot_l1 (i : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.lhsIdx i k 1).val = (k ⟨0, by decide⟩).val := by
  simp [DotDims.lhsIdx, Cert.ReferenceIdeal.dot_S100000x128_S128x16_S100000x16_1_0_0_1_n_n]; rfl
theorem hdot_r0 (i : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.rhsIdx i k 0).val = (k ⟨0, by decide⟩).val := by
  simp [DotDims.rhsIdx, Cert.ReferenceIdeal.dot_S100000x128_S128x16_S100000x16_1_0_0_1_n_n]; rfl
theorem hdot_r1 (i : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.rhsIdx i k 1).val = (i 1).val := by
  simp [DotDims.rhsIdx, Cert.ReferenceIdeal.dot_S100000x128_S128x16_S100000x16_1_0_0_1_n_n]; rfl

/-- The reference's logits at (r, c). -/
theorem host_logit (h : FVec Ideal Cert.ReferenceIdeal.S100000x128 .f32) (w : FVec Ideal Cert.ReferenceIdeal.S128x16 .f32)
    (b : FVec Ideal Cert.ReferenceIdeal.S16 .f32) (r : Fin 100000) (c : Fin 16) :
    Cert.RefLayer.hostLogits h w b (ix2 r c) = Cert.Spec.logit h w (fun c => b (ix1 c)) r c := by
  unfold Cert.RefLayer.hostLogits Cert.Spec.logit
  rw [addf_apply]
  refine congrArg₂ (· + ·) ?_ ?_
  · exact Cert.SageLayer.dotGeneral_rows_cols Cert.ReferenceIdeal.dot_S100000x128_S128x16_S100000x16_1_0_0_1_n_n rfl rfl
      hdot_l0 hdot_l1 hdot_r0 hdot_r1 none h w r c
  · exact (Cert.BcastInDim.row_mat_apply _ Cert.ReferenceIdeal.Gen.bcast_S1x16_S100000x16_0_1 r c).trans
      (Cert.BcastInDim.vec_row_apply b Cert.ReferenceIdeal.Gen.bcast_S16_S1x16_1 (0 : Fin 1) c)

/-- The value the reference subtracts from row r of an array of logits `z`, spread back over the row: the row's
    maximum, taken from −∞ and once more against −∞. -/
theorem host_top (z : FVec Ideal Cert.ReferenceIdeal.S100000x16 .f32) (r : Fin 100000) (c : Fin 16) :
    broadcastInDim Cert.ReferenceIdeal.S100000x16 ![0, 1] Cert.ReferenceIdeal.Gen.bcast_S100000x1_S100000x16_0_1
        (broadcastInDim Cert.ReferenceIdeal.S100000x1 ![0] Cert.ReferenceIdeal.Gen.bcast_S100000_S100000x1_0
          (maximumf (broadcastInDim Cert.ReferenceIdeal.S100000 ![] Cert.ReferenceIdeal.Gen.bcast_S_S100000
              (constant (F := Ideal) Cert.ReferenceIdeal.S_ .f32 0xFF800000#32))
            (Host.reduce FloatOps.maximumf z (constant (F := Ideal) Cert.ReferenceIdeal.S_ .f32 0xFF800000#32)
              Cert.ReferenceIdeal.Gen.reducesTo_S100000x16_S100000_d1 Cert.ReferenceIdeal.Gen.h_S_))) (ix2 r c)
      = max (Ideal.ofBits .f32 0xFF800000#32)
          ((Finset.univ : Finset (Fin 16)).fold max (Ideal.ofBits .f32 0xFF800000#32) fun c' => z (ix2 r c')) := by
  rw [Cert.HostSoftmax.keepdims_apply _ Cert.ReferenceIdeal.Gen.bcast_S100000_S100000x1_0
      Cert.ReferenceIdeal.Gen.bcast_S100000x1_S100000x16_0_1 r c, maximumf_apply,
    Cert.HostSoftmax.scalar_apply (constant (F := Ideal) Cert.ReferenceIdeal.S_ .f32 0xFF800000#32) ![]
      Cert.ReferenceIdeal.Gen.bcast_S_S100000 (ix1 r),
    Cert.HostSoftmax.rowMax_apply z (constant (F := Ideal) Cert.ReferenceIdeal.S_ .f32 0xFF800000#32)
      Cert.ReferenceIdeal.Gen.reducesTo_S100000x16_S100000_d1 (by decide) Cert.ReferenceIdeal.Gen.h_S_ r,
    constant_apply, constant_apply]

/-- The host's exponential of a difference, and the host's quotient, at an index. -/
theorem hostExp_sub_apply {s : Shape} (z B : FVec Ideal s .f32) (i : s.Idx) :
    Host.exp (subf z B) i = Ideal.exp (z i - B i) := rfl
theorem hostDivf_apply {s : Shape} (A B : FVec Ideal s .f32) (i : s.Idx) :
    Host.divf A B i = Ideal.div (A i) (B i) := rfl

/-- The reference's softmax over the rows of an array of logits `z`, at (r, q): its row sum starts from 0, and
    0 + s = s. -/
theorem host_softmax (z : FVec Ideal Cert.ReferenceIdeal.S100000x16 .f32) (r : Fin 100000) (q : Fin 16) :
    Cert.RefLayer.hostRowSoftmax z (ix2 r q)
      = Ideal.div
          (Ideal.exp (z (ix2 r q) - max (Ideal.ofBits .f32 0xFF800000#32)
            ((Finset.univ : Finset (Fin 16)).fold max (Ideal.ofBits .f32 0xFF800000#32) fun c' => z (ix2 r c'))))
          (∑ c'' : Fin 16, Ideal.exp (z (ix2 r c'') - max (Ideal.ofBits .f32 0xFF800000#32)
            ((Finset.univ : Finset (Fin 16)).fold max (Ideal.ofBits .f32 0xFF800000#32) fun c' => z (ix2 r c')))) := by
  -- the exponential of an entry less its row's top value
  have hE : ∀ c' : Fin 16,
      Host.exp (subf z
        (broadcastInDim Cert.ReferenceIdeal.S100000x16 ![0, 1] Cert.ReferenceIdeal.Gen.bcast_S100000x1_S100000x16_0_1
          (broadcastInDim Cert.ReferenceIdeal.S100000x1 ![0] Cert.ReferenceIdeal.Gen.bcast_S100000_S100000x1_0
            (maximumf (broadcastInDim Cert.ReferenceIdeal.S100000 ![] Cert.ReferenceIdeal.Gen.bcast_S_S100000
                (constant (F := Ideal) Cert.ReferenceIdeal.S_ .f32 0xFF800000#32))
              (Host.reduce FloatOps.maximumf z (constant (F := Ideal) Cert.ReferenceIdeal.S_ .f32 0xFF800000#32)
                Cert.ReferenceIdeal.Gen.reducesTo_S100000x16_S100000_d1 Cert.ReferenceIdeal.Gen.h_S_))))) (ix2 r c')
        = Ideal.exp (z (ix2 r c') - max (Ideal.ofBits .f32 0xFF800000#32)
            ((Finset.univ : Finset (Fin 16)).fold max (Ideal.ofBits .f32 0xFF800000#32) fun c'' => z (ix2 r c''))) := fun c' => by
    rw [hostExp_sub_apply, host_top]
  -- the quotient: the row sum spread back over the row is 0 plus the sum of the row's exponentials
  unfold Cert.RefLayer.hostRowSoftmax
  rw [hostDivf_apply, hE q,
    Cert.HostSoftmax.keepdims_apply _ Cert.ReferenceIdeal.Gen.bcast_S100000_S100000x1_0
      Cert.ReferenceIdeal.Gen.bcast_S100000x1_S100000x16_0_1 r q,
    Cert.HostSoftmax.rowSum_apply _ (constant (F := Ideal) Cert.ReferenceIdeal.S_ .f32 0x00000000#32)
      Cert.ReferenceIdeal.Gen.reducesTo_S100000x16_S100000_d1 (by decide) Cert.ReferenceIdeal.Gen.h_S_ r,
    constant_apply, Ideal.ofBits_zero_f32, zero_add]
  exact congrArg (Ideal.div _) (Finset.sum_congr rfl fun c' _ => hE c')

/-- The reference's last layer at node r and class q. -/
theorem host_entry (h : FVec Ideal Cert.ReferenceIdeal.S100000x128 .f32) (w : FVec Ideal Cert.ReferenceIdeal.S128x16 .f32)
    (b : FVec Ideal Cert.ReferenceIdeal.S16 .f32) (r : Fin 100000) (q : Fin 16) :
    Cert.RefLayer.hostSoftmaxDense h w b (ix2 r q) = Cert.Spec.softmaxAt h w (fun c => b (ix1 c)) r q := by
  unfold Cert.RefLayer.hostSoftmaxDense
  rw [host_softmax]
  unfold Cert.Spec.softmaxAt Cert.Spec.rowTop
  simp only [host_logit]

end Cert.KernelIdeal.SoftmaxEntry

end
-- ==== Proof.Region2.lean ====
/-
  What the last call leaves in its output array.

  The call walks 50 bands of 2000 nodes; at band t it reads rows 2000·t … 2000·t+1999 of the node features, the whole
  weight array and the bias row, and writes the band's softmax back as band t of the output. Every row of the softmax
  depends on that row of the features alone, so the bands together are the softmax layer of the whole array, which is
  what the reference's host operations compute.
-/
import proofs.«131153_j89472758710571_1_alg».proof.Proof.Gen.KernelIdeal.Frame
import proofs.«131153_j89472758710571_1_alg».proof.ReferenceIdeal
import proofs.«131153_j89472758710571_1_alg».proof.Proof.Gen.ReferenceIdeal
import proofs.«131153_j89472758710571_1_alg».proof.Proof.SoftmaxEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx
open Idealize.ShloMosaic.Pipeline (Dat)

/-- The offsets of a whole-block access, however the zeros are spelt. -/
theorem hz2 : (![0, 0] : Fin 2 → Nat) = fun _ => 0 := funext fun a => by fin_cases a <;> rfl

/-- The softmax at a row reads that row of the features only: two feature arrays that agree on one row each, with the
    same weights and biases that agree, give the same softmax on those rows. -/
theorem softmaxAt_congr_row {N N' : ℕ} (h : (⟨2, ![N, 128]⟩ : Shape).Idx → EReal) (h' : (⟨2, ![N', 128]⟩ : Shape).Idx → EReal)
    (w : (⟨2, ![128, 16]⟩ : Shape).Idx → EReal) (b b' : Fin 16 → EReal) (r : Fin N) (r' : Fin N')
    (hh : ∀ k : Fin 128, h (ix2 r k) = h' (ix2 r' k)) (hb : ∀ c, b c = b' c) (c : Fin 16) :
    Cert.Spec.softmaxAt h w b r c = Cert.Spec.softmaxAt h' w b' r' c := by
  have hl : ∀ c' : Fin 16, Cert.Spec.logit h w b r c' = Cert.Spec.logit h' w b' r' c' := fun c' => by
    unfold Cert.Spec.logit
    rw [hb c']
    exact congrArg (· + b' c') (Finset.sum_congr rfl fun k _ => by rw [hh k])
  have ht : Cert.Spec.rowTop h w b r = Cert.Spec.rowTop h' w b' r' := by
    unfold Cert.Spec.rowTop
    simp only [hl]
  unfold Cert.Spec.softmaxAt
  simp only [hl, ht]

/-- The printed index maps over the grid: the features' and the output's blocks move with the point along the rows, the
    weights' and the bias row's blocks stay at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks2
variable (V : (c : Dev nD) → (b : Ref sig .tc) → Buf (Elt Ideal) ((c : Thread nD τ).loc b)) (c : Dev nD)

/-- The features' block at point t is rows 2000·t … 2000·t + 1999 of the features. -/
theorem feat_block2 (t : Fin cfg2.N) (p : Fin 2000) (k : Fin 128) (r : Fin 100000) (hr : r.val = 2000 * t.val + p.val) :
    (iblk2 V c 0 t : Vec Ideal S2000x128 .f32) (ix2 p k) = (V c main_v65 : S100000x128.Idx → EReal) (ix2 r k) := by
  obtain ⟨e0, e1, -⟩ := idx_facts2 t
  unfold iblk2
  rw [View.read_apply]
  show V c main_v65 _ = V c main_v65 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weights' block at every point is the whole weight array. -/
theorem weight_block2 (t : Fin cfg2.N) :
    (iblk2 V c 1 t : Vec Ideal S128x16 .f32) = (V c main_arg6 : S128x16.Idx → EReal) := by
  obtain ⟨-, -, e0, e1, -⟩ := idx_facts2 t
  funext i
  unfold iblk2
  rw [View.read_apply]
  show V c main_arg6 _ = V c main_arg6 _
  congr 1
  funext a
  apply Fin.ext
  match a with
  | ⟨0, _⟩ => show win2_1.index t (0 : Fin 2) * 128 + 1 * (i 0).val = (i 0).val; rw [e0]; omega
  | ⟨1, _⟩ => show win2_1.index t (1 : Fin 2) * 16 + 1 * (i 1).val = (i 1).val; rw [e1]; omega

/-- The bias row's block at every point is the whole bias row. -/
theorem bias_block2 (t : Fin cfg2.N) :
    (iblk2 V c 2 t : Vec Ideal S1x16 .f32) = (V c main_v66 : S1x16.Idx → EReal) := by
  obtain ⟨-, -, -, -, e0, e1, -⟩ := idx_facts2 t
  funext i
  unfold iblk2
  rw [View.read_apply]
  show V c main_v66 _ = V c main_v66 _
  congr 1
  funext a
  apply Fin.ext
  match a with
  | ⟨0, _⟩ => show win2_2.index t (0 : Fin 2) * 1 + 1 * (i 0).val = (i 0).val; rw [e0]; omega
  | ⟨1, _⟩ => show win2_2.index t (1 : Fin 2) * 16 + 1 * (i 1).val = (i 1).val; rw [e1]; omega

end Blocks2

/-- One entry: the band's softmax at row p, computed from a band whose row p is row r of the features, with the same
    weights and the bias row holding the bias, is the reference's last layer at row r. -/
theorem band2_entry (h : FVec Ideal Cert.ReferenceIdeal.S100000x128 .f32) (w : FVec Ideal Cert.ReferenceIdeal.S128x16 .f32)
    (b7 : FVec Ideal Cert.ReferenceIdeal.S16 .f32)
    (x0 : Vec Ideal S2000x128 .f32) (x1 : Vec Ideal S128x16 .f32) (x2 : Vec Ideal S1x16 .f32)
    (p : Fin 2000) (q : Fin 16) (r : Fin 100000)
    (h0 : ∀ k : Fin 128, x0 (ix2 p k) = h (ix2 r k)) (h1 : x1 = w)
    (h2 : ∀ q' : Fin 16, x2 (ix2 (0 : Fin 1) q') = b7 (ix1 q')) :
    k2_pay1 (F := Ideal) x0 x1 x2 (ix2 p q) = Cert.RefLayer.hostSoftmaxDense h w b7 (ix2 r q) := by
  rw [Cert.KernelIdeal.SoftmaxEntry.kernel_entry, Cert.KernelIdeal.SoftmaxEntry.host_entry]
  subst h1
  exact softmaxAt_congr_row x0 h x1 _ _ p r h0 h2 q

section Array2
variable (V : (c : Dev nD) → (b : Ref sig .tc) → Buf (Elt Ideal) ((c : Thread nD τ).loc b)) (c : Dev nD)
variable (b7 : FVec Ideal S16 .f32) (hb : V c main_v66 = shapeCast S1x16 b7 shapeCasts_S16_S1x16)

include hb in
/-- What point t writes back is band t of the reference's last layer of the whole arrays. -/
theorem flushed2_eq (t : Fin cfg2.N) :
    (dat2 (F := Ideal) V c).flushed 3 t
      = ((cfg2.win 3).blk t).view.read (Elt Ideal) (Cert.RefLayer.hostSoftmaxDense (V c main_v65) (V c main_arg6) b7) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128x16) hz2, View.ld_unit_zero (S := S1x16) hz2]
  obtain ⟨-, -, -, -, -, -, e0, e1⟩ := idx_facts2 t
  have hN : t.val < 50 := Nat.lt_of_lt_of_eq t.isLt N_2
  funext j
  have hj0 : (j 0).val < 2000 := (j 0).isLt
  have hj1 : (j 1).val < 16 := (j 1).isLt
  rw [View.read_apply]
  have hx : (win2 3).xinj (grid2.coords t) j = ix2 (⟨(j 0).val, hj0⟩ : Fin 2000) (⟨(j 1).val, hj1⟩ : Fin 16) := by
    funext a; match a with | ⟨0, _⟩ => rfl | ⟨1, _⟩ => rfl
  have he : ((View.whole main_v67).slice ((win2 3).rect t)).emb j
      = ix2 (⟨2000 * t.val + (j 0).val, by omega⟩ : Fin 100000) (⟨(j 1).val, hj1⟩ : Fin 16) := by
    funext a
    apply Fin.ext
    match a with
    | ⟨0, _⟩ => show win2_3.index t (0 : Fin 2) * 2000 + 1 * (j 0).val = 2000 * t.val + (j 0).val; rw [e0]; omega
    | ⟨1, _⟩ => show win2_3.index t (1 : Fin 2) * 16 + 1 * (j 1).val = (j 1).val; rw [e1]; omega
  show k2_pay1 (iblk2 V c 0 t) (iblk2 V c 1 t) (iblk2 V c 2 t) ((win2 3).xinj (grid2.coords t) j) = _
  rw [hx, he]
  refine band2_entry _ _ _ _ _ _ _ _ _ (fun k => feat_block2 V c t _ k _ rfl) (weight_block2 V c t) fun q' => ?_
  rw [bias_block2 V c t, hb]
  exact shapeCast_a_1a_apply b7 shapeCasts_S16_S1x16 (0 : Fin 1) q'

/-- An index of the output array is in point t's block iff each coordinate is in the block's range on its axis. -/
theorem mem_blk2 (t : Fin cfg2.N) (i : S100000x16.Idx) :
    i ∈ ((cfg2.win 3).blk t).view.set ↔ ∀ a : Fin 2, win2_3.index t a * S2000x16.size a ≤ (i a).val ∧ (i a).val < win2_3.index t a * S2000x16.size a + S2000x16.size a := by
  show i ∈ ((View.whole main_v67).slice (win2_3.rect t)).set ↔ _
  rw [View.set_slice_whole, Rect.mem_set_unit]
  exact Iff.rfl

/-- Every block row of the output is some point's: band q is point q's. -/
theorem idx_onto2 : ∀ q : Fin 50, ∃ t : Fin cfg2.N, win2_3.index t = ![q.val, 0] :=
  (by decide +kernel : ∀ q : Fin 50, ∃ t : Fin grid2.N, win2_3.index t = ![q.val, 0])

/-- The bands tile the output: row r is in band r / 2000. -/
theorem cover2 (i : S100000x16.Idx) : ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ := idx_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 16 ≤ (i 1).val ∧ (i 1).val < win2_3.index t (1 : Fin 2) * 16 + 16; omega

end Array2

/-- After the last call its output array is the reference's last layer of the node features and the weights it was
    given and of the bias `b7`, when the bias row it was given is `b7` laid out as a row. -/
theorem arr2 (V : (c : Dev nD) → (b : Ref sig .tc) → Buf (Elt Ideal) ((c : Thread nD τ).loc b)) (c : Dev nD)
    (b7 : FVec Ideal S16 .f32) (hb : V c main_v66 = shapeCast S1x16 b7 shapeCasts_S16_S1x16) :
    (dat2 (F := Ideal) V c).arrAt 3 cfg2.N
      = Cert.RefLayer.hostSoftmaxDense (V c main_v65) (V c main_arg6) b7 :=
  (dat2 (F := Ideal) V c).arrAt_eq_of_cover 3 (Cert.RefLayer.hostSoftmaxDense (V c main_v65) (V c main_arg6) b7)
    (fun t _ => flushed2_eq V c b7 hb t) cover2

end Cert.KernelIdeal.RegionVal

end
-- ==== Proof.HostChainC.lean ====
/-
  The kernel program from its second call to its result, read as a function of the arguments.

  The host operations after the second call aggregate its output over the edges as after the first (with the same
  per-edge weights, which the reference program computes a second time to the same values), add the second bias and
  clamp at zero: the second layer's activations. The bias of the last layer is laid out as a row, and the last call
  leaves the softmax layer of the activations. Each buffer holds the reference's stage of the same name, and the result
  array holds the reference's result.
-/
import proofs.«131153_j89472758710571_1_alg».proof.Proof.Gen.KernelIdeal.Frame
import proofs.«131153_j89472758710571_1_alg».proof.Proof.Gen.ReferenceIdeal
import proofs.«131153_j89472758710571_1_alg».proof.Proof.RefRead
import proofs.«131153_j89472758710571_1_alg».proof.Proof.LibConcatCongr
import proofs.«131153_j89472758710571_1_alg».proof.Proof.HostChainB
import proofs.«131153_j89472758710571_1_alg».proof.Proof.Region2
import proofs.«131153_j89472758710571_1_alg».proof.Proof.HostSoftmaxDef
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The reference computes the per-edge weights twice, to one value. -/
theorem norm_again (x1 : (⟨Cert.ReferenceIdeal.S2x1600000, .i32⟩ : BufTy).Contents (Elt Ideal)) :
    Cert.ReferenceIdeal.ReadP.val_main_v71 (F := Ideal) x1 = Cert.ReferenceIdeal.ReadP.val_main_v30 (F := Ideal) x1 := by
  rfl

set_option maxHeartbeats 400000 in
/-- The second layer before the clamp, stage by stage. The kernel program's host operations between its second call and
    the clamp are the reference's: the sources wrapped into range and laid out as a column, the rows of the second call's
    output gathered there, each scaled by its edge's weight (spread over the 128 features), the scaled rows added up at
    the targets into zeros, and the bias row spread over the nodes and added. Each stage is the reference's stage of the
    same operation on the same operands; the per-edge weights are the reference's second computation of them. -/
theorem pre2_stages (x0 : (⟨Cert.ReferenceIdeal.S100000x500, .f32⟩ : BufTy).Contents (Elt Ideal)) (x1 : (⟨Cert.ReferenceIdeal.S2x1600000, .i32⟩ : BufTy).Contents (Elt Ideal))
    (x2 : (⟨Cert.ReferenceIdeal.S500x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) :
    @Eq ((⟨S100000x128, .f32⟩ : BufTy).Contents (Elt Ideal))
      (addf (F := Ideal) (s := S100000x128) (φ := .f32)
        (Host.scatterAdd (F := Ideal) (φ := .f32) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (Cert.ReferenceIdeal.ReadP.val_main_v6 (F := Ideal) x1))
          (mulf (F := Ideal) (s := S1700000x128) (φ := .f32)
            (Host.gather gather_S100000x128_S1700000x1_S1700000x128_1_0_n_n_0_1_1128 (Cert.ReferenceIdeal.ReadP.val_main_v48 (F := Ideal) x0 x1 x2 x3 x4)
              (broadcastInDim S1700000x1 ![0] bcast_S1700000_S1700000x1_0
                (select (cmpi .slt (Cert.ReferenceIdeal.ReadP.val_main_v3 (F := Ideal) x1) (broadcastInDim S1700000 ![] bcast_S_S1700000 (constantI S_ 32 0#32)))
                  (addi (Cert.ReferenceIdeal.ReadP.val_main_v3 (F := Ideal) x1) (broadcastInDim S1700000 ![] bcast_S_S1700000 (constantI S_ 32 100000#32)))
                  (Cert.ReferenceIdeal.ReadP.val_main_v3 (F := Ideal) x1))))
            (broadcastInDim S1700000x128 ![0, 1] bcast_S1700000x1_S1700000x128_0_1
              (broadcastInDim S1700000x1 ![0] bcast_S1700000_S1700000x1_0 (Cert.ReferenceIdeal.ReadP.val_main_v30 (F := Ideal) x1)))))
        (broadcastInDim S100000x128 ![0, 1] bcast_S1x128_S100000x128_0_1 (broadcastInDim S1x128 ![1] bcast_S128_S1x128_1 x5)))
      (Cert.ReferenceIdeal.ReadP.val_main_v87 (F := Ideal) x0 x1 x2 x3 x4 x5) := by
  -- the wrapped sources as a column
  have h77 : (broadcastInDim S1700000x1 ![0] bcast_S1700000_S1700000x1_0
        (select (cmpi .slt (Cert.ReferenceIdeal.ReadP.val_main_v3 (F := Ideal) x1) (broadcastInDim S1700000 ![] bcast_S_S1700000 (constantI S_ 32 0#32)))
          (addi (Cert.ReferenceIdeal.ReadP.val_main_v3 (F := Ideal) x1) (broadcastInDim S1700000 ![] bcast_S_S1700000 (constantI S_ 32 100000#32)))
          (Cert.ReferenceIdeal.ReadP.val_main_v3 (F := Ideal) x1)))
      = Cert.ReferenceIdeal.ReadP.val_main_v77 (F := Ideal) x1 := rfl
  -- the rows gathered there
  have e78 : Host.gather gather_S100000x128_S1700000x1_S1700000x128_1_0_n_n_0_1_1128 (Cert.ReferenceIdeal.ReadP.val_main_v48 (F := Ideal) x0 x1 x2 x3 x4) (Cert.ReferenceIdeal.ReadP.val_main_v77 (F := Ideal) x1)
      = Cert.ReferenceIdeal.ReadP.val_main_v78 (F := Ideal) x0 x1 x2 x3 x4 := rfl
  have h78 := (congrArg (Host.gather gather_S100000x128_S1700000x1_S1700000x128_1_0_n_n_0_1_1128 (Cert.ReferenceIdeal.ReadP.val_main_v48 (F := Ideal) x0 x1 x2 x3 x4)) h77).trans e78
  -- the weights spread over the features: the reference's second computation of them is its first
  have h80 : broadcastInDim S1700000x128 ![0, 1] bcast_S1700000x1_S1700000x128_0_1
        (broadcastInDim S1700000x1 ![0] bcast_S1700000_S1700000x1_0 (Cert.ReferenceIdeal.ReadP.val_main_v30 (F := Ideal) x1))
      = Cert.ReferenceIdeal.ReadP.val_main_v80 (F := Ideal) x1 := by
    rw [← norm_again x1]
    rfl
  -- the scaled rows
  have e81 : mulf (F := Ideal) (s := S1700000x128) (φ := .f32) (Cert.ReferenceIdeal.ReadP.val_main_v78 (F := Ideal) x0 x1 x2 x3 x4) (Cert.ReferenceIdeal.ReadP.val_main_v80 (F := Ideal) x1)
      = Cert.ReferenceIdeal.ReadP.val_main_v81 (F := Ideal) x0 x1 x2 x3 x4 := rfl
  have h81 := (congrArg₂ (mulf (F := Ideal) (s := S1700000x128) (φ := .f32)) h78 h80).trans e81
  -- added up at the targets into zeros
  have e82 : (broadcastInDim S100000x128 ![] bcast_S_S100000x128 (constant (F := Ideal) S_ .f32 0x00000000#32)) = Cert.ReferenceIdeal.ReadP.val_main_v82 (F := Ideal) := rfl
  have e83 : (broadcastInDim S1700000x1 ![0] bcast_S1700000_S1700000x1_0 (Cert.ReferenceIdeal.ReadP.val_main_v6 (F := Ideal) x1)) = Cert.ReferenceIdeal.ReadP.val_main_v83 (F := Ideal) x1 := rfl
  have e84 : Host.scatterAdd (F := Ideal) (φ := .f32) scatter_S100000x128_S1700000x1_S1700000x128_1_0_0_1 (Cert.ReferenceIdeal.ReadP.val_main_v82 (F := Ideal)) (Cert.ReferenceIdeal.ReadP.val_main_v83 (F := Ideal) x1) (Cert.ReferenceIdeal.ReadP.val_main_v81 (F := Ideal) x0 x1 x2 x3 x4)
      = Cert.ReferenceIdeal.ReadP.val_main_v84 (F := Ideal) x0 x1 x2 x3 x4 := rfl
  have h84 := (congr (congr (congrArg (Host.scatterAdd (F := Ideal) (φ := .f32) scatter_S100000x128_S1700000x1_S1700000x128_1_0_0_1) e82) e83) h81).trans e84
  -- the bias row spread over the nodes, added
  have h86 : broadcastInDim S100000x128 ![0, 1] bcast_S1x128_S100000x128_0_1 (broadcastInDim S1x128 ![1] bcast_S128_S1x128_1 x5)
      = Cert.ReferenceIdeal.ReadP.val_main_v86 (F := Ideal) x5 := rfl
  have e87 : addf (F := Ideal) (s := S100000x128) (φ := .f32) (Cert.ReferenceIdeal.ReadP.val_main_v84 (F := Ideal) x0 x1 x2 x3 x4) (Cert.ReferenceIdeal.ReadP.val_main_v86 (F := Ideal) x5)
      = Cert.ReferenceIdeal.ReadP.val_main_v87 (F := Ideal) x0 x1 x2 x3 x4 x5 := rfl
  exact (congrArg₂ (addf (F := Ideal) (s := S100000x128) (φ := .f32)) h84 h86).trans e87

set_option maxHeartbeats 400000 in
/-- After the host operations that follow the second call: the second layer before the clamp. -/
theorem at8_pre2 : W8 m ρ c (Proc.devRef .tc main_v64)
    = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W7 m ρ c) (Proc.devRef .tc main_v64) = _
  after_results_simp
  rw [at7_h2, at7_src, at7_dst, at7_norm, at7_arg5]
  exact pre2_stages _ _ _ _ _ _

set_option maxHeartbeats 400000 in
/-- The second clamp at zero, from any contents: the maximum of the buffer it reads with the zero array. -/
theorem relu2_stage (V : Valuation τ sig (Elt Ideal)) :
    @Eq ((⟨S100000x128, .f32⟩ : BufTy).Contents (Elt Ideal))
      (StableHlo.after hostOps2_1 V (Proc.devRef .tc main_v65))
      (maximumf (F := Ideal) (s := S100000x128) (φ := .f32) (V (Proc.devRef .tc main_v64))
        (Cert.ReferenceIdeal.ReadP.val_main_call3_v0 (F := Ideal))) := by
  after_results_simp
  rfl

/-- Laying the last bias out as a row writes the row's buffer only: the activations' buffer keeps its contents. -/
theorem biasRow_keeps_act2 : ∀ op ∈ (hostOps2_2 : List (HloOp τ sig (Elt Ideal))), Proc.devRef .tc main_v65 ∉ op.writes :=
  List.forall_iff_forall_mem.mp (by
    simp only [hostOps2_2, List.Forall, StableHlo.reshape_writes, Finset.mem_singleton]
    exact StableHlo.devRef_ne_of_ne (by decide))
set_option maxHeartbeats 400000 in
/-- The second layer's activations. -/
theorem at10_act2 : W10 m ρ c (Proc.devRef .tc main_v65)
    = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (StableHlo.after_of_forall_not_mem (b := Proc.devRef .tc main_v65) _ _ biasRow_keeps_act2).trans ?_
  refine (relu2_stage (W8 m ρ c)).trans ?_
  rw [at8_pre2]
  rfl

/-- The last layer's bias as a row. -/
theorem at10_biasRow : W10 m ρ c (Proc.devRef .tc main_v66) = shapeCast S1x16 (m ((c : Thread nD τ).loc main_arg7)) shapeCasts_S16_S1x16 := by
  show after hostOps2_2 (after hostOps2_1 (after hostOps2 _)) (Proc.devRef .tc main_v66) = _
  after_results_simp
  rw [at7_arg7]
  rfl

theorem at10_arg6 : W10 m ρ c (Proc.devRef .tc main_arg6) = (m ((c : Thread nD τ).loc main_arg6)) := by
  show after hostOps2_2 (after hostOps2_1 (after hostOps2 _)) (Proc.devRef .tc main_arg6) = _
  after_results_simp
  exact at7_arg6 m ρ c

/-- The reference's result is its last layer of its second layer's activations. -/
theorem ref_result_eq (x0 : (⟨Cert.ReferenceIdeal.S100000x500, .f32⟩ : BufTy).Contents (Elt Ideal)) (x1 : (⟨Cert.ReferenceIdeal.S2x1600000, .i32⟩ : BufTy).Contents (Elt Ideal))
    (x2 : (⟨Cert.ReferenceIdeal.S500x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x16, .f32⟩ : BufTy).Contents (Elt Ideal)) (x7 : (⟨Cert.ReferenceIdeal.S16, .f32⟩ : BufTy).Contents (Elt Ideal)) :
    Cert.ReferenceIdeal.ReadP.val_main_v103 (F := Ideal) x0 x1 x2 x3 x4 x5 x6 x7
      = Cert.RefLayer.hostSoftmaxDense (Cert.ReferenceIdeal.ReadP.val_main_v88 (F := Ideal) x0 x1 x2 x3 x4 x5) x6 x7 := by
  rfl

/-- The kernel program's result array. -/
theorem result : W11 m ρ c (Proc.devRef .tc main_v67)
    = Cert.ReferenceIdeal.ReadP.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ?_
  rw [Cert.KernelIdeal.RegionVal.arr2 (V10 m ρ) c (m ((c : Thread nD τ).loc main_arg7)) (at10_biasRow m ρ c), ref_result_eq]
  show Cert.RefLayer.hostSoftmaxDense (W10 m ρ c (Proc.devRef .tc main_v65)) (W10 m ρ c (Proc.devRef .tc main_arg6)) _ = _
  rw [at10_act2, at10_arg6]

end Cert.KernelIdeal.HostChain

end
-- ==== Proof.lean ====
/-
  A two-layer graph convolution network with a softmax head, as three matrix-unit calls among host operations, against
  the same network in plain array operations: the two programs end with equal results over the extended reals.

  Both programs build, from the edge list, the edge sources and targets with a self-loop per node, the in-degrees and the
  per-edge weights dinv[src] · dinv[dst]; a layer is  relu(scatter-add over targets of (h·W)[src] · weight, + bias).
  The kernel program computes x·W1, h·W2 and the head  softmax(h·Wfc + bfc)  in calls that walk 50 bands of 2000 rows;
  every row of a product or of the softmax depends on that row of the left operand alone, so the bands together are the
  whole product (Region01) and the whole head (Region2, over the entry-by-entry reading of SoftmaxEntry against Spec).
  The host operations between the calls are the reference's, operation for operation (HostChainA, B, C): each buffer of
  the kernel program holds the reference's stage of the same arguments, the reference computing the edge weights twice to
  one value. Entry by entry the two sides are the same sums and the same folds of max over the same terms; the only
  facts about the extended reals used are that 0 + s = s and that a row's sum or maximum does not depend on the order the
  row is visited in. Neither needs finiteness, so the proof never opens the precondition.

  The frames of the two kernel programs and the reference's run are generated; the kernel program's run with its result
  named (KRun) restates the generated frame's launch with one more buffer read at the end.
-/
import proofs.«131153_j89472758710571_1_alg».proof.Defs
import proofs.«131153_j89472758710571_1_alg».proof.Proof.Gen.Kernel
import proofs.«131153_j89472758710571_1_alg».proof.Proof.Gen.Kernel.Frame
import proofs.«131153_j89472758710571_1_alg».proof.Proof.Gen.KernelIdeal
import proofs.«131153_j89472758710571_1_alg».proof.Proof.Gen.KernelIdeal.Frame
import proofs.«131153_j89472758710571_1_alg».proof.Proof.Gen.ReferenceIdeal
import proofs.«131153_j89472758710571_1_alg».proof.Proof.Gen.Pre_finite_inputs
import proofs.«131153_j89472758710571_1_alg».proof.Proof.RefRun
import proofs.«131153_j89472758710571_1_alg».proof.Proof.RefRead
import proofs.«131153_j89472758710571_1_alg».proof.Proof.KRun
import proofs.«131153_j89472758710571_1_alg».proof.Proof.HostChainC
import Idealize.ShloMosaic.Adequacy
import Idealize.ShloMosaic.Init

set_option maxRecDepth 16384

noncomputable section

namespace Cert.Proof

open Idealize.ShloMosaic Idealize.ShloMosaic.TcCoe Idealize.SL.Sem

/-- The reference run's named result term is the last stage of the reference read one operation at a time. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v103 m c
      = Cert.ReferenceIdeal.ReadP.val_main_v103 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  unfold Cert.ReferenceIdeal.ValueP.res_main_v103; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the arguments in their result arrays. -/
theorem algebraic : Cert.algebraic_KernelIdeal_ReferenceIdeal := by
  intro m ρ m' ρ' _ hagree
  refine ⟨fun c => Cert.ReferenceIdeal.ReadP.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostChain.result m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [ref_result, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
